-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x12288 : Shape := ⟨3, ![8, 2048, 12288]⟩
abbrev S8x6144x2048 : Shape := ⟨3, ![8, 6144, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x12288 : S_.BroadcastsInDim S8x2048x12288 (![] : Fin 0 → Fin S8x2048x12288.rank)
  reducesTo_S8x2048x12288_S_d0_1_2 : S8x2048x12288.ReducesTo [0, 1, 2] S_
  bcast_S_S8x6144x2048 : S_.BroadcastsInDim S8x6144x2048 (![] : Fin 0 → Fin S8x6144x2048.rank)
  reducesTo_S8x6144x2048_S_d0_1_2 : S8x6144x2048.ReducesTo [0, 1, 2] S_

variable [Facts]

def fn {F : FTy → Type} [FloatOps F] (main_arg0 : FVec F S8192x2048 .f32) (main_arg1 : FVec F S8x2048x12288 .f32) (main_arg2 : FVec F S8x6144x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x12288 .f32 := Host.absf main_arg1
  let main_cst_0 : FVec F S_ .f32 := constant S_ .f32 0x7F800000#32
  let main_v5 : FVec F S8x2048x12288 .f32 := broadcastInDim S8x2048x12288 ![] bcast_S_S8x2048x12288 main_cst_0
  let main_v6 : IVec S8x2048x12288 1 := cmpf .olt main_v4 main_v5
  let main_c_1 : IVec S_ 1 := constantI S_ 1 1#1
  let main_v7 : IVec S_ 1 := (fun x v => Host.reduce IntOp.andi x v reducesTo_S8x2048x12288_S_d0_1_2 h_S_) main_v6 main_c_1
  let main_v8 : IVec S_ 1 := andi main_v3 main_v7
  let main_v9 : FVec F S8x6144x2048 .f32 := Host.absf main_arg2
  let main_cst_2 : FVec F S_ .f32 := constant S_ .f32 0x7F800000#32
  let main_v10 : FVec F S8x6144x2048 .f32 := broadcastInDim S8x6144x2048 ![] bcast_S_S8x6144x2048 main_cst_2
  let main_v11 : IVec S8x6144x2048 1 := cmpf .olt main_v9 main_v10
  let main_c_3 : IVec S_ 1 := constantI S_ 1 1#1
  let main_v12 : IVec S_ 1 := (fun x v => Host.reduce IntOp.andi x v reducesTo_S8x6144x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x12288 : Shape := ⟨3, ![8, 2048, 12288]⟩
abbrev S8x6144x2048 : Shape := ⟨3, ![8, 6144, 2048]⟩
abbrev S8x1024x2048 : Shape := ⟨3, ![8, 1024, 2048]⟩
abbrev S8x1024x6144 : Shape := ⟨3, ![8, 1024, 6144]⟩
abbrev S1x1024x2048 : Shape := ⟨3, ![1, 1024, 2048]⟩
abbrev S1x2048x256 : Shape := ⟨3, ![1, 2048, 256]⟩
abbrev S1x1024x256 : Shape := ⟨3, ![1, 1024, 256]⟩
abbrev S1024x2048 : Shape := ⟨2, ![1024, 2048]⟩
abbrev S2048x256 : Shape := ⟨2, ![2048, 256]⟩
abbrev S1024x256 : Shape := ⟨2, ![1024, 256]⟩
abbrev S1x1024x512 : Shape := ⟨3, ![1, 1024, 512]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8x2048x12288, .f32⟩
  | .hbm, ⟨2, _⟩ => ⟨S8x6144x2048, .f32⟩
  | .hbm, ⟨3, _⟩ => ⟨S8x1024x2048, .f32⟩
  | .hbm, ⟨4, _⟩ => ⟨S8x1024x6144, .bf16⟩
  | .hbm, ⟨5, _⟩ => ⟨S8x1024x2048, .f32⟩
  | .hbm, ⟨6, _⟩ => ⟨S8192x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x2048, .f32⟩
  | .local _ .vmem, ⟨11, _⟩ => ⟨S1x512x2048, .f32⟩
  | .local _ .vmem, ⟨12, _⟩ => ⟨S1x1024x2048, .f32⟩
  | .local _ .vmem, ⟨13, _⟩ => ⟨S1x1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 12], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S8192x2048_S8x1024x2048 : S8192x2048.ShapeCasts S8x1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  shapeCasts_S1024x2048_S1x1024x2048 : S1024x2048.ShapeCasts S1x1024x2048
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S8x1024x2048_S8192x2048 : S8x1024x2048.ShapeCasts S8192x2048
  dot_S1024x2048_S2048x256_S1024x256_1_0_0_1_n_n_wf : DotDims.WF S1024x2048 S2048x256 S1024x256 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x12288.size a
  hwx0_1 : ∀ i : grid0.Coords, EltTy.bits .f32 = 32 ∨ (Rect.block (s := S8x2048x12288) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x12288.size a
  hwx0_2 : ∀ i : grid0.Coords, EltTy.bits .f32 = 32 ∨ (Rect.block (s := S8x2048x12288) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x6144.size a
  hwx0_3 : ∀ i : grid0.Coords, EltTy.bits .bf16 = 32 ∨ (Rect.block (s := S8x1024x6144) S1x1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x6144.size a
  hwx1_0 : ∀ i : grid1.Coords, EltTy.bits .bf16 = 32 ∨ (Rect.block (s := S8x1024x6144) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S8x6144x2048.size a
  hwx1_1 : ∀ i : grid1.Coords, EltTy.bits .f32 = 32 ∨ (Rect.block (s := S8x6144x2048) S1x512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S8x1024x2048.size a
  hwx1_2 : ∀ i : grid1.Coords, EltTy.bits .f32 = 32 ∨ (Rect.block (s := S8x1024x2048) S1x1024x2048.size (cc1_transform_2 i) (hinb1_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S8x2048x12288 : Shape := ⟨3, ![8, 2048, 12288]⟩
abbrev S8x6144x2048 : Shape := ⟨3, ![8, 6144, 2048]⟩
abbrev S8x1024x2048 : Shape := ⟨3, ![8, 1024, 2048]⟩
abbrev S8x1024x12288 : Shape := ⟨3, ![8, 1024, 12288]⟩
abbrev S8x1024x6144 : Shape := ⟨3, ![8, 1024, 6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x12288, .f32⟩
  | .hbm, ⟨2, _⟩ => ⟨S8x6144x2048, .f32⟩
  | .hbm, ⟨3, _⟩ => ⟨S8x1024x2048, .f32⟩
  | .hbm, ⟨4, _⟩ => ⟨S8x1024x12288, .f32⟩
  | .hbm, ⟨5, _⟩ => ⟨S8x1024x6144, .f32⟩
  | .hbm, ⟨6, _⟩ => ⟨S8x1024x6144, .f32⟩
  | .hbm, ⟨7, _⟩ => ⟨S8x1024x6144, .f32⟩
  | .hbm, ⟨8, _⟩ => ⟨S8x1024x6144, .f32⟩
  | .hbm, ⟨9, _⟩ => ⟨S_, .f32⟩
  | .hbm, ⟨10, _⟩ => ⟨S8x1024x6144, .f32⟩
  | .hbm, ⟨11, _⟩ => ⟨S8x1024x6144, .f32⟩
  | .hbm, ⟨12, _⟩ => ⟨S_, .f32⟩
  | .hbm, ⟨13, _⟩ => ⟨S8x1024x6144, .f32⟩
  | .hbm, ⟨14, _⟩ => ⟨S8x1024x6144, .f32⟩
  | .hbm, ⟨15, _⟩ => ⟨S8x1024x6144, .f32⟩
  | .hbm, ⟨16, _⟩ => ⟨S8x1024x6144, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x12288_S8x1024x6144_0_0_0 : S8x1024x12288.Slices ![0, 0, 0] S8x1024x6144
  slices_S8x1024x12288_S8x1024x6144_0_0_6144 : S8x1024x12288.Slices ![0, 0, 6144] S8x1024x6144
  bcast_S_S8x1024x6144 : S_.BroadcastsInDim S8x1024x6144 (![] : Fin 0 → Fin S8x1024x6144.rank)
  shapeCasts_S8x1024x2048_S8192x2048 : S8x1024x2048.ShapeCasts S8192x2048
  dot_S8x1024x2048_S8x2048x12288_S8x1024x12288_2_1_1_2_0_0_wf : DotDims.WF S8x1024x2048 S8x2048x12288 S8x1024x12288 [2] [1] [1] [2] [0] [0]
  dot_S8x1024x6144_S8x6144x2048_S8x1024x2048_2_1_1_2_0_0_wf : DotDims.WF S8x1024x6144 S8x6144x2048 S8x1024x2048 [2] [1] [1] [2] [0] [0]

variable [Facts₀]

def dot_S8x1024x2048_S8x2048x12288_S8x1024x12288_2_1_1_2_0_0 : DotDims S8x1024x2048 S8x2048x12288 S8x1024x12288 where
  lhsContracting := [2]
  rhsContracting := [1]
  lhsNonContracting := [1]
  rhsNonContracting := [2]
  lhsBatch := [0]
  rhsBatch := [0]
  wf := dot_S8x1024x2048_S8x2048x12288_S8x1024x12288_2_1_1_2_0_0_wf
def dot_S8x1024x6144_S8x6144x2048_S8x1024x2048_2_1_1_2_0_0 : DotDims S8x1024x6144 S8x6144x2048 S8x1024x2048 where
  lhsContracting := [2]
  rhsContracting := [1]
  lhsNonContracting := [1]
  rhsNonContracting := [2]
  lhsBatch := [0]
  rhsBatch := [0]
  wf := dot_S8x1024x6144_S8x6144x2048_S8x1024x2048_2_1_1_2_0_0_wf

class Facts : Prop extends Facts₀ where

variable [Facts]
-- ==== Proof.K.Region0.lean ====
/-
  The gate/up kernel (the first of the program's two kernels) on one core, at a PARAMETER `V`: the contents of
  the core's buffers when the kernel is entered.

  The kernel's grid has 8 × 24 points; at point (e, n) it is handed expert e's 1024 × 2048 token slab, two
  2048 × 256 column blocks of expert e's weight matrix (columns 256 n … and 256 (n + 24) …: the gate half and the
  up half), and writes one 1024 × 256 block of the hidden activations.  Each staging buffer is loaded whole and the
  output's is stored whole, once, so what the body leaves in the output's buffer is one function `out0_3` of the
  three input blocks.  The two weight windows read ONE array: the core holds it at two half shares, one per window.
-/
import proofs.«121133_j45956150067877_2_alg».proof.Proof.Gen.Kernel.Launch
import proofs.«121133_j45956150067877_2_alg».proof.Proof.Gen.Kernel.Skeleton
import proofs.«121133_j45956150067877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window that
    is not fetched at a point has not moved since it last was). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x1024x2048 := Rect.unit (s := S1x1024x2048) ![0, 0, 0] S1x1024x2048.size inb_S1x1024x2048_S1x1024x2048_0_0_0
abbrev r0_1 : Rect S1x2048x256 := Rect.unit (s := S1x2048x256) ![0, 0, 0] S1x2048x256.size inb_S1x2048x256_S1x2048x256_0_0_0
abbrev r0_3 : Rect S1x1024x256 := Rect.unit (s := S1x1024x256) ![0, 0, 0] S1x1024x256.size inb_S1x1024x256_S1x1024x256_0_0_0

/-- What the body leaves in the output's staging buffer, from the three input blocks: its one store. -/
def out0_3 (x0 : Vec F S1x1024x2048 .f32) (x1 : Vec F S1x2048x256 .f32) (x2 : Vec F S1x2048x256 .f32) : Vec F S1x1024x256 .bf16 :=
  View.canon [⟨r0_3, k0_pay1 (View.ld x0 r0_0) (View.ld x1 r0_1) (View.ld x2 r0_1)⟩]

/-- The one store is of the whole buffer, so it covers it. -/
theorem cover0_3 (p0 : Vec F S1x1024x256 .bf16) (y : S1x1024x256.Idx) :
    ∃ pc ∈ ([⟨r0_3, p0⟩] : List (View.Piece (Elt F) S1x1024x256 .bf16)), y ∈ pc.1.set :=
  View.cover_of_tiled [⟨r0_3, p0⟩] S1x1024x256.size (by rfl) y

/-! ## The body's triple -/

set_option maxHeartbeats 1000000 in
/-- On whole staging buffers, the inputs' at contents `x0 x1 x2` and the output's at anything, the body runs to the
    end leaving the inputs' as they were and the output's at `out0_3 x0 x1 x2`. -/
theorem sound_kernel0 (c : Dev nD) (E : Set ℕ) (i : grid0.Coords)
    (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x1024x256 .bf16) (harg5 : arg5.IsWhole)
    (x0 : Vec F S1x1024x2048 .f32) (x1 : Vec F S1x2048x256 .f32) (x2 : Vec F S1x2048x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__gate_up_kernel i arg2 harg2 arg3 harg3 arg4 harg4 arg5 harg5) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The kernel's proof data -/

/-- The proof data of the gate/up kernel on core `c`: the arrays as the kernel finds them; after the body at point
    `t` each input's buffer at its block and the output's at `out0_3` of the three input blocks; the weight array,
    read through two windows, held at one half share per window. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## The arrays, in and out of the core's unscoped buffers

The kernel's four windows sit on three buffers: the token slabs, the weights (twice) and the hidden activations. -/

/-- The three buffers behind the windows' arrays, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_arg1) ↦{fullShare} Vc main_arg1)
          ∗ (((c : Thread nD τ).loc main_v1) ↦{fullShare} Vc main_v1)) := by
  unfold Pipeline.arrBufs
  exact bigSep_eq_bigSepL_of_eq [main_v0, main_arg1, main_v1] (by decide) (by decide) _

/-- The kernel's arrays at contents `G`, window by window: the weights' buffer at one half share for each of its
    two windows. -/
theorem arrays0_eq (c : Dev nD) (G : (w : Fin cfg0.W) → Buf (Elt F) ((cfg0.win w).arr.view.loc (c : Thread nD τ))) :
    (dat0 V c).arrays G
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_v1) ↦{fullShare} G 3)) := by
  unfold Dat.arrays
  rw [bigSep_W0]
  rw [(arr_whole0 0).set_eq_univ, (arr_whole0 1).set_eq_univ, (arr_whole0 3).set_eq_univ]
  rfl

/-- ENTRY. A core's unscoped buffers at contents `Vc` are the kernel's arrays at those contents (the weights'
    buffer split into its two halves) and the unscoped rest. -/
theorem arrays0_of_unscopedBufs (c : Dev nD)
    (G : (w : Fin cfg0.W) → Buf (Elt F) ((cfg0.win w).arr.view.loc (c : Thread nD τ)))
    (h0 : G 0 = V c main_v0) (h1 : G 1 = V c main_arg1) (h2 : G 2 = V c main_arg1) (h3 : G 3 = V c main_v1) :
    (unscopedBufs c (V c) : sProp 𝕄) ⊢ iprop((dat0 V c).arrays G ∗ Pipeline.unscopedRest spec0 c (V c)) := by
  have hs : (unscopedBufs c (V c) : sProp 𝕄) = iprop(Pipeline.arrBufs spec0 c (V c) ∗ Pipeline.unscopedRest spec0 c (V c)) :=
    Pipeline.unscopedBufs_split₀ cfgs 0 winFacts₀0.arr_unscoped c (V c)
  rw [hs, arrBufs0_eq, arrays0_eq, h0, h1, h2, h3]
  iintro ⟨⟨Ha, Hb, Hc⟩, Hr⟩
  ihave Hb' := (pointsTo_share (PosShare.mem_left_op_right fullShare)).1 $$ Hb
  icases Hb' with ⟨Hb1, Hb2⟩
  isplitr [Hr]
  · isplitl [Ha]; · iexact Ha
    isplitl [Hb1]; · iexact Hb1
    isplitl [Hb2]; · iexact Hb2
    iexact Hc
  iexact Hr

/-- EXIT. The kernel's arrays at contents `G` — the two windows on the weights' buffer at the same contents — and the
    unscoped rest are the core's unscoped buffers at any contents `V'` that has the arrays at `G` and agrees with
    the entry contents off them. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ)))
    (h0 : G 0 = V' main_v0) (h1 : G 1 = V' main_arg1) (h2 : G 2 = V' main_arg1) (h3 : G 3 = V' main_v1)
    (hrest : ∀ b, b ∉ Finset.univ.image (Pipeline.arrRef spec0) → V' b = V c b) :
    iprop((dat0 V c).arrays G ∗ Pipeline.unscopedRest spec0 c (V c)) ⊢ (unscopedBufs c V' : sProp 𝕄) := by
  have hs : (unscopedBufs c V' : sProp 𝕄) = iprop(Pipeline.arrBufs spec0 c V' ∗ Pipeline.unscopedRest spec0 c V') :=
    Pipeline.unscopedBufs_split₀ cfgs 0 winFacts₀0.arr_unscoped c V'
  rw [hs, arrBufs0_eq, arrays0_eq, h0, h1, h2, h3]
  have hr : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by rw [hrest b (Finset.mem_sdiff.mp hb).2]
  rw [hr]
  iintro ⟨⟨Ha, Hb1, Hb2, Hc⟩, Hr⟩
  isplitr [Hr]
  · isplitl [Ha]; · iexact Ha
    isplitr [Hc]
    · iapply (pointsTo_share (PosShare.mem_left_op_right fullShare)).2
      isplitl [Hb1]; · iexact Hb1
      iexact Hb2
    iexact Hc
  iexact Hr

end Cert.Kernel.Hand

end
-- ==== Proof.K.R1Common.lean ====
/- The second call (the down projection) on its 8 x 12 grid: what its frame argument shares between the two cases
   of the body's one conditional. Window 0 is the hidden activations' block (e, 0, k), window 1 the down weights'
   block (e, k, 0), window 2 the output's block (e, 0, 0), which stays in place while k runs over 0..11 and is
   written back only at k = 11. The body zeroes the output block when k = 0 and then adds h · w to it. -/
import proofs.«121133_j45956150067877_2_alg».proof.Proof.Gen.Kernel.Launch
import proofs.«121133_j45956150067877_2_alg».proof.Proof.Gen.Kernel.Skeleton
import proofs.«121133_j45956150067877_2_alg».proof.Proof.Gen.Kernel.Points
import Idealize.ShloMosaic.Lib.Pipeline.FrameBody
import Idealize.ShloMosaic.Lib.Ring
import Idealize.ShloMosaic.Lib.Tactic

-- membership in a rectangle of large extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region of the second call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: the reduction index k (coordinate 1)
    is zero. -/
abbrev cond1_0 (i : grid1.Coords) : Prop := (Scalar.cmpi .ne (Scalar.extui (Scalar.cmpi .eq (BitVec.ofNat 32 (i 1).val) 0#32)) 0#32) = 1#1
/-- It holds at the first point of each expert's row of twelve — decided over the grid. -/
theorem hcond1_0 : ∀ t : Fin cfg1.N, cond1_0 (grid1.coords t) ↔ t.val % 12 = 0 :=
  (by decide +kernel : ∀ t : Fin grid1.N, cond1_0 (grid1.coords t) ↔ t.val % 12 = 0)

/-! ## The staging memrefs -/

/-- One staging buffer of output window 2, through which its contents are stated (the choice does not matter). -/
abbrev VO1_2 : View sig .tc .vmem S1x1024x2048 .f32 := (Memref.whole cc1_stg2_0 : Memref sig .tc .vmem S1x1024x2048 .f32).view
/-- Each window's current staging memref at point `t`, spelled as the pipeline passes it, and its wholeness. -/
abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x2048 .f32 := win1_2.stage (cfg1.slots t 2)
abbrev hs1_2 (t : Fin cfg1.N) : (ms1_2 t).IsWhole := hstage1_2 ((cfg1.slots t 2).cast nbuf1_2)

end Cert.Kernel.Hand

end
-- ==== Proof.K.R1RunA.lean ====
/- The second call's body in the case k = 0 (the conditional taken): the output block is first overwritten with
   zeros, then the input blocks and the (now zero) output block are loaded and zeros + h · w is stored over it. -/
import proofs.«121133_j45956150067877_2_alg».proof.Proof.K.R1Common

-- membership in a rectangle of large extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region of the second call is entered
variable (V : (c : Dev nD) → (b : Ref sig .tc) → Buf (Elt F) ((c : Thread nD τ).loc b))

-- (the run's proof term is large: the definition's epilogue walks it past the default budget)
set_option maxHeartbeats 1000000 in
/-- What the body's stores leave in the output's staging memref, as pieces (last first), in the case k = 0, with
    the proof that on whole staging memrefs — the inputs' at their contents `x0`, `x1`, the output's at anything —
    the body runs to the continuation holding the inputs' as they were and the output's buffer with its pieces
    written. The pieces are the witness the symbolic run finds. -/
noncomputable def kernelRun1_A (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : cond1_0 i)
    (x0 : Vec F S1x1024x512 .bf16) (x1 : Vec F S1x512x2048 .f32) :
    { L2 : List (View.Piece (Elt F) S1x1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__down_kernel i arg2 harg2 arg3 harg3 arg4 harg4) K } := by
  refine ⟨?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.R1RunB.lean ====
/- The second call's body in the case k ≠ 0 (the conditional not taken): the input blocks and the output block's
   running contents are loaded and (running contents) + h · w is stored over the output block. -/
import proofs.«121133_j45956150067877_2_alg».proof.Proof.K.R1RunA

-- membership in a rectangle of large extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region of the second call is entered
variable (V : (c : Dev nD) → (b : Ref sig .tc) → Buf (Elt F) ((c : Thread nD τ).loc b))

-- (the run's proof term is large: the definition's epilogue walks it past the default budget)
set_option maxHeartbeats 1000000 in
/-- What the body's store leaves in the output's staging memref, as pieces, in the case k ≠ 0, with the proof that
    on whole staging memrefs — the inputs' at their contents `x0`, `x1`, the output's at its running contents
    `xo2` — the body runs to the continuation holding the inputs' as they were and the output's buffer with its
    pieces written. The pieces are the witness the symbolic run finds. -/
noncomputable def kernelRun1_B (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : ¬cond1_0 i)
    (x0 : Vec F S1x1024x512 .bf16) (x1 : Vec F S1x512x2048 .f32) (xo2 : Vec F S1x1024x2048 .f32) :
    { L2 : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__down_kernel i arg2 harg2 arg3 harg3 arg4 harg4) K } := by
  refine ⟨?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Region1.lean ====
/- The second call's half of the frame argument, at the contents `V` its region is entered with: what the
   output block's staging buffer holds after each grid point (zeros + h·w at k = 0, the previous contents + h·w
   otherwise), the pipeline's proof data, and the body obligation at every point. -/
import proofs.«121133_j45956150067877_2_alg».proof.Proof.K.R1RunB

-- membership in a rectangle of large extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region of the second call is entered
variable (V : (c : Dev nD) → (b : Ref sig .tc) → Buf (Elt F) ((c : Thread nD τ).loc b))

/-! ## What each case leaves in the output's staging buffer -/

/-- In the case k = 0 the pieces stored into the output tile its block (two whole-block stores), so they cover it. -/
theorem cover1_A_2 (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : cond1_0 i)
    (x0 : Vec F S1x1024x512 .bf16) (x1 : Vec F S1x512x2048 .f32) (y : S1x1024x2048.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x1024x2048.size (by sl_kernel_rfl) y

/-- What the case k = 0 leaves in the output's staging buffer: its pieces read back over junk. -/
def out1_A_2 (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : cond1_0 i)
    (x0 : Vec F S1x1024x512 .bf16) (x1 : Vec F S1x512x2048 .f32) : Vec F S1x1024x2048 .f32 :=
  VO1_2.read (Elt F) (VO1_2.writes (Elt F) VO1_2.junk (kernelRun1_A c i arg2 harg2 arg3 harg3 arg4 harg4 hc0 x0 x1).1)

/-- In the case k ≠ 0 the piece stored into the output tiles its block (one whole-block store), so it covers it. -/
theorem cover1_B_2 (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : ¬cond1_0 i)
    (x0 : Vec F S1x1024x512 .bf16) (x1 : Vec F S1x512x2048 .f32) (xo2 : Vec F S1x1024x2048 .f32) (y : S1x1024x2048.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x1024x2048.size (by sl_kernel_rfl) y

/-- What the case k ≠ 0 leaves in the output's staging buffer: its pieces read back over junk. -/
def out1_B_2 (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : ¬cond1_0 i)
    (x0 : Vec F S1x1024x512 .bf16) (x1 : Vec F S1x512x2048 .f32) (xo2 : Vec F S1x1024x2048 .f32) : Vec F S1x1024x2048 .f32 :=
  VO1_2.read (Elt F) (VO1_2.writes (Elt F) VO1_2.junk (kernelRun1_B c i arg2 harg2 arg3 harg3 arg4 harg4 hc0 x0 x1 xo2).1)

/-! ## What the output's buffer holds after each point -/

/-- The accumulation. What the output's staging buffer holds after the body at position `n`: at k = 0 what the
    first case leaves from the point's input blocks; otherwise what the second case leaves from them and from what
    this function gives at `n - 1` (the buffer is not written back in between). -/
def outsAt1 (c : Dev nD) : (n : ℕ) → n < cfg1.N → Vec F S1x1024x2048 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 12 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point with k = 0: the first case's contents. -/
theorem outsAt1_A (c : Dev nD) (t : Fin cfg1.N) (h0 : t.val % 12 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point with k ≠ 0: the second case's contents, over what the point before left. -/
theorem outsAt1_B (c : Dev nD) (t : Fin cfg1.N) (h0 : ¬t.val % 12 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the second call's pipeline on core `c`: the arrays as the region finds them (`V`); after
    the body at point `t` each input's buffer at its block and the output's at `outsAt1`; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point with k ≠ 0 the output's current staging buffer holds what the body left at the point before: the
    point is not the first, the buffer was not written back in between (that happens only after k = 11), and the
    window is live and uncut. -/
theorem before1_2_B (c : Dev nD) (t : Fin cfg1.N) (h0 : ¬t.val % 12 = 0) (d) :
    (dat1 V c).before 2 t d = (outsAt1 V c (t.val - 1) (Nat.lt_of_le_of_lt (Nat.sub_le _ _) t.isLt)) := by
  have hN : t.val < 96 := lt_of_lt_of_eq t.isLt (show cfg1.N = 96 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks; the closed form of the condition says which case
    the point is in; at k ≠ 0 the output's memref holds what the point before left; so the case's run applies. The
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 96 := lt_of_lt_of_eq t.isLt (show cfg1.N = 96 from N_1)
  by_cases h0 : t.val % 12 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program on the TensorCores: a reshape of the tokens, the gate/up kernel, the down kernel, a reshape of
  the result — run from any memory, with the contents of every buffer named at each boundary between two of these
  four items.  From the last boundary's contents follow both that the three argument arrays end as they were
  launched and what the result array holds.
-/
import proofs.«121133_j45956150067877_2_alg».proof.Proof.K.Region0
import proofs.«121133_j45956150067877_2_alg».proof.Proof.K.Region1
import proofs.«121133_j45956150067877_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the tokens' reshape: what the gate/up kernel is entered from. -/
abbrev B1 : Dev nD → Valuation τ sig (Elt F) := fun c => StableHlo.after hostOps0 (B0 m ρ c)
abbrev E0 : (c : Dev nD) → (b : Ref sig .tc) → Buf (Elt F) ((c : Thread nD τ).loc b) := fun c b => B1 m ρ c b
/-- After the gate/up kernel: the hidden activations at what its write-backs leave, every other buffer as entered. -/
def B2 (c : Dev nD) : Valuation τ sig (Elt F) :=
  Function.update (B1 m ρ c) (Proc.devRef .tc main_v1) ((dat0 (E0 m ρ) c).arrAt 3 cfg0.N)
abbrev E1 : (c : Dev nD) → (b : Ref sig .tc) → Buf (Elt F) ((c : Thread nD τ).loc b) := fun c b => B2 m ρ c b
/-- After the down kernel: its output array at what its write-backs leave, every other buffer as entered. -/
def B3 (c : Dev nD) : Valuation τ sig (Elt F) :=
  Function.update (B2 m ρ c) (Proc.devRef .tc main_v2) ((dat1 (E1 m ρ) c).arrAt 2 cfg1.N)
abbrev E2 : (c : Dev nD) → (b : Ref sig .tc) → Buf (Elt F) ((c : Thread nD τ).loc b) := fun c b => B3 m ρ c b
/-- After the result's reshape. -/
abbrev B4 : Dev nD → Valuation τ sig (Elt F) := fun c => StableHlo.after hostOps2 (B3 m ρ c)

theorem B2_self (c : Dev nD) : B2 m ρ c (Proc.devRef .tc main_v1) = (dat0 (E0 m ρ) c).arrAt 3 cfg0.N := by
  unfold B2; exact Function.update_self ..
theorem B2_of_ne (c : Dev nD) (b : Ref sig .tc) (hb : b ≠ main_v1) : B2 m ρ c (Proc.devRef .tc b) = B1 m ρ c (Proc.devRef .tc b) := by
  unfold B2; exact Function.update_of_ne (StableHlo.devRef_ne_of_ne hb) ..
theorem B3_self (c : Dev nD) : B3 m ρ c (Proc.devRef .tc main_v2) = (dat1 (E1 m ρ) c).arrAt 2 cfg1.N := by
  unfold B3; exact Function.update_self ..
theorem B3_of_ne (c : Dev nD) (b : Ref sig .tc) (hb : b ≠ main_v2) : B3 m ρ c (Proc.devRef .tc b) = B2 m ρ c (Proc.devRef .tc b) := by
  unfold B3; exact Function.update_of_ne (StableHlo.devRef_ne_of_ne hb) ..
theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B4_of (c : Dev nD) (r : Ref sig .tc) (h : r ∉ hostOps2_W) : B4 m ρ c (Proc.devRef .tc r) = B3 m ρ c (Proc.devRef .tc r) :=
  StableHlo.after_of_writes_sub hostOps2 _ hostOps2_writes h

/-- No item writes an argument array: the last boundary's contents at it are the launch contents. -/
theorem B4_main_arg0 (c : Dev nD) : B4 m ρ c (Proc.devRef .tc main_arg0) = m ((c : Thread nD τ).loc main_arg0) :=
  (B4_of m ρ c main_arg0 (by decide)).trans <| (B3_of_ne m ρ c main_arg0 (by decide)).trans <| (B2_of_ne m ρ c main_arg0 (by decide)).trans <| (B1_of m ρ c main_arg0 (by decide)).trans rfl
theorem B4_main_arg1 (c : Dev nD) : B4 m ρ c (Proc.devRef .tc main_arg1) = m ((c : Thread nD τ).loc main_arg1) :=
  (B4_of m ρ c main_arg1 (by decide)).trans <| (B3_of_ne m ρ c main_arg1 (by decide)).trans <| (B2_of_ne m ρ c main_arg1 (by decide)).trans <| (B1_of m ρ c main_arg1 (by decide)).trans rfl
theorem B4_main_arg2 (c : Dev nD) : B4 m ρ c (Proc.devRef .tc main_arg2) = m ((c : Thread nD τ).loc main_arg2) :=
  (B4_of m ρ c main_arg2 (by decide)).trans <| (B3_of_ne m ρ c main_arg2 (by decide)).trans <| (B2_of_ne m ρ c main_arg2 (by decide)).trans <| (B1_of m ρ c main_arg2 (by decide)).trans rfl

/-! ## The proof data family and the thread state -/

abbrev admH : (p : Fin 2) → (pcfgs (F := F) p).Adm := fun p => (cfgs p).toPCfg_adm
/-- Each kernel's proof data at the contents it is entered from. -/
def pdatsH : (p : Fin 2) → (c : Dev nD) → Dat τ (Elt F) Unit ℕ (UR sig nD τ) ℕ (Pipeline.pin (pcfgs (F := F)) admH p) c
  | ⟨0, _⟩ => fun c => dat0 (E0 m ρ) c
  | ⟨1, _⟩ => fun c => dat1 (E1 m ρ) c
abbrev 𝒱H : Variants := Variants.none
abbrev LH : GSem nD τ sig → Finset Unit := fun _ => ∅
abbrev lvH : GSem nD τ sig → Unit → ℕ := fun _ _ => 0
/-- What rides beside the buffers through every item: the generator register at some state, and that the core owes
    nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B4 m ρ c) ∗ ∃ r, prngReg c r)

/-! ## The two kernels as segments -/

set_option backward.isDefEq.respectTransparency.types false in
/-- The gate/up kernel between the boundaries `B1` and `B2`: its arrays split out of the unscoped buffers (the
    weights' buffer into two halves) and put back with the hidden activations at what the write-backs leave. -/
def reg0H : Pipeline.RegionSeg (pcfgs (F := F)) admH (pdatsH m ρ) () defs₀ 𝒱H LH lvH 0 where
  win := winFacts₀0
  block_pos := block_pos0
  stage_whole := stage_whole0
  K := PEmpty
  osem k := k.elim
  ho := Pipeline.OwnSemFacts.none _
  hbody c := (body_obligation0 (E0 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := arrays0_of_unscopedBufs (E0 m ρ) c ((pdatsH m ρ 0 c).arrAt · 0) rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (E0 m ρ) c (E1 m ρ c) ((pdatsH m ρ 0 c).arrAt · cfg0.N)
      (((dat0 (E0 m ρ) c).arrAt_in 0 rfl _).trans ((A_eq0 (E0 m ρ) c 0).trans (B2_of_ne m ρ c main_v0 (by decide)).symm))
      (((dat0 (E0 m ρ) c).arrAt_in 1 rfl _).trans ((A_eq0 (E0 m ρ) c 1).trans (B2_of_ne m ρ c main_arg1 (by decide)).symm))
      (((dat0 (E0 m ρ) c).arrAt_in 2 rfl _).trans ((A_eq0 (E0 m ρ) c 2).trans (B2_of_ne m ρ c main_arg1 (by decide)).symm))
      (B2_self m ρ c).symm
      (fun b hb => B2_of_ne m ρ c b fun e => hb (Finset.mem_image.mpr ⟨3, Finset.mem_univ _, e.symm⟩))
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

theorem hF1 (c : Dev nD) (w : Fin cfg1.W) : (dat1 (E1 m ρ) c).arrAt w cfg1.N = E2 m ρ c (Pipeline.arrRef spec1 w) := by
  match w with
  | ⟨0, _⟩ => exact ((dat1 (E1 m ρ) c).arrAt_in 0 rfl _).trans ((A_eq1 (E1 m ρ) c 0).trans (B3_of_ne m ρ c main_v1 (by decide)).symm)
  | ⟨1, _⟩ => exact ((dat1 (E1 m ρ) c).arrAt_in 1 rfl _).trans ((A_eq1 (E1 m ρ) c 1).trans (B3_of_ne m ρ c main_arg2 (by decide)).symm)
  | ⟨2, _⟩ => exact (B3_self m ρ c).symm
theorem hrest1 (c : Dev nD) : ∀ b, b ∉ Finset.univ.image (Pipeline.arrRef spec1) → E2 m ρ c b = E1 m ρ c b :=
  fun b hb => B3_of_ne m ρ c b fun e => hb (Finset.mem_image.mpr ⟨2, Finset.mem_univ _, e.symm⟩)

set_option backward.isDefEq.respectTransparency.types false in
/-- The down kernel between the boundaries `B2` and `B3`: three windows on three distinct buffers, all at the full
    share. -/
def reg1H : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ LH lvH 1 fun _ _ => rfl
  pre c := iprop(StableHlo.held (c : Thread nD τ) (Pipeline.ucRefs τ sig) (B2 m ρ c) ∗ RH c)
  post c := iprop(StableHlo.held (c : Thread nD τ) (Pipeline.ucRefs τ sig) (B3 m ρ c) ∗ RH c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E1 m ρ c) (E2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .host (hsegH hostOps0 hostOps0_sub hostOps0_fresh (B0 m ρ)),
    .region (reg0H m ρ),
    .region (reg1H m ρ),
    .host (hsegH hostOps2 hostOps2_sub hostOps2_fresh (B3 m ρ)) ]

theorem main_runH (c : Dev nD) : main (F := F) c = Pipeline.Seg.run (segsH m ρ) := (main_chain c).trans (by chain_rfl)

set_option backward.isDefEq.respectTransparency.types false in
/-- From any memory with zero counters every weakly fair execution of the program on the TensorCores terminates,
    nothing faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun _ => .rfl, fun c => by
      show iprop(StableHlo.held (c : Thread nD τ) (Pipeline.ucRefs τ sig) (B4 m ρ c) ∗ RH c)
        ⊢ iprop(TnH m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The three argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c)⟩) (run_all m ρ)

end Cert.Kernel.Hand

end
-- ==== Proof.KI.Region0.lean ====
/-
  The gate/up kernel (the first of the program's two kernels) on one core, at a PARAMETER `V`: the contents of
  the core's buffers when the kernel is entered.

  The kernel's grid has 8 × 24 points; at point (e, n) it is handed expert e's 1024 × 2048 token slab, two
  2048 × 256 column blocks of expert e's weight matrix (columns 256 n … and 256 (n + 24) …: the gate half and the
  up half), and writes one 1024 × 256 block of the hidden activations.  Each staging buffer is loaded whole and the
  output's is stored whole, once, so what the body leaves in the output's buffer is one function `out0_3` of the
  three input blocks.  The two weight windows read ONE array: the core holds it at two half shares, one per window.
-/
import proofs.«121133_j45956150067877_2_alg».proof.Proof.Gen.KernelIdeal.Launch
import proofs.«121133_j45956150067877_2_alg».proof.Proof.Gen.KernelIdeal.Skeleton
import proofs.«121133_j45956150067877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window that
    is not fetched at a point has not moved since it last was). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x1024x2048 := Rect.unit (s := S1x1024x2048) ![0, 0, 0] S1x1024x2048.size inb_S1x1024x2048_S1x1024x2048_0_0_0
abbrev r0_1 : Rect S1x2048x256 := Rect.unit (s := S1x2048x256) ![0, 0, 0] S1x2048x256.size inb_S1x2048x256_S1x2048x256_0_0_0
abbrev r0_3 : Rect S1x1024x256 := Rect.unit (s := S1x1024x256) ![0, 0, 0] S1x1024x256.size inb_S1x1024x256_S1x1024x256_0_0_0

/-- What the body leaves in the output's staging buffer, from the three input blocks: its one store. -/
def out0_3 (x0 : Vec F S1x1024x2048 .f32) (x1 : Vec F S1x2048x256 .f32) (x2 : Vec F S1x2048x256 .f32) : Vec F S1x1024x256 .bf16 :=
  View.canon [⟨r0_3, k0_pay1 (View.ld x0 r0_0) (View.ld x1 r0_1) (View.ld x2 r0_1)⟩]

/-- The one store is of the whole buffer, so it covers it. -/
theorem cover0_3 (p0 : Vec F S1x1024x256 .bf16) (y : S1x1024x256.Idx) :
    ∃ pc ∈ ([⟨r0_3, p0⟩] : List (View.Piece (Elt F) S1x1024x256 .bf16)), y ∈ pc.1.set :=
  View.cover_of_tiled [⟨r0_3, p0⟩] S1x1024x256.size (by rfl) y

/-! ## The body's triple -/

set_option maxHeartbeats 1000000 in
/-- On whole staging buffers, the inputs' at contents `x0 x1 x2` and the output's at anything, the body runs to the
    end leaving the inputs' as they were and the output's at `out0_3 x0 x1 x2`. -/
theorem sound_kernel0 (c : Dev nD) (E : Set ℕ) (i : grid0.Coords)
    (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x1024x256 .bf16) (harg5 : arg5.IsWhole)
    (x0 : Vec F S1x1024x2048 .f32) (x1 : Vec F S1x2048x256 .f32) (x2 : Vec F S1x2048x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__gate_up_kernel i arg2 harg2 arg3 harg3 arg4 harg4 arg5 harg5) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The kernel's proof data -/

/-- The proof data of the gate/up kernel on core `c`: the arrays as the kernel finds them; after the body at point
    `t` each input's buffer at its block and the output's at `out0_3` of the three input blocks; the weight array,
    read through two windows, held at one half share per window. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## The arrays, in and out of the core's unscoped buffers

The kernel's four windows sit on three buffers: the token slabs, the weights (twice) and the hidden activations. -/

/-- The three buffers behind the windows' arrays, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_arg1) ↦{fullShare} Vc main_arg1)
          ∗ (((c : Thread nD τ).loc main_v1) ↦{fullShare} Vc main_v1)) := by
  unfold Pipeline.arrBufs
  exact bigSep_eq_bigSepL_of_eq [main_v0, main_arg1, main_v1] (by decide) (by decide) _

/-- The kernel's arrays at contents `G`, window by window: the weights' buffer at one half share for each of its
    two windows. -/
theorem arrays0_eq (c : Dev nD) (G : (w : Fin cfg0.W) → Buf (Elt F) ((cfg0.win w).arr.view.loc (c : Thread nD τ))) :
    (dat0 V c).arrays G
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_v1) ↦{fullShare} G 3)) := by
  unfold Dat.arrays
  rw [bigSep_W0]
  rw [(arr_whole0 0).set_eq_univ, (arr_whole0 1).set_eq_univ, (arr_whole0 3).set_eq_univ]
  rfl

/-- ENTRY. A core's unscoped buffers at contents `Vc` are the kernel's arrays at those contents (the weights'
    buffer split into its two halves) and the unscoped rest. -/
theorem arrays0_of_unscopedBufs (c : Dev nD)
    (G : (w : Fin cfg0.W) → Buf (Elt F) ((cfg0.win w).arr.view.loc (c : Thread nD τ)))
    (h0 : G 0 = V c main_v0) (h1 : G 1 = V c main_arg1) (h2 : G 2 = V c main_arg1) (h3 : G 3 = V c main_v1) :
    (unscopedBufs c (V c) : sProp 𝕄) ⊢ iprop((dat0 V c).arrays G ∗ Pipeline.unscopedRest spec0 c (V c)) := by
  have hs : (unscopedBufs c (V c) : sProp 𝕄) = iprop(Pipeline.arrBufs spec0 c (V c) ∗ Pipeline.unscopedRest spec0 c (V c)) :=
    Pipeline.unscopedBufs_split₀ cfgs 0 winFacts₀0.arr_unscoped c (V c)
  rw [hs, arrBufs0_eq, arrays0_eq, h0, h1, h2, h3]
  iintro ⟨⟨Ha, Hb, Hc⟩, Hr⟩
  ihave Hb' := (pointsTo_share (PosShare.mem_left_op_right fullShare)).1 $$ Hb
  icases Hb' with ⟨Hb1, Hb2⟩
  isplitr [Hr]
  · isplitl [Ha]; · iexact Ha
    isplitl [Hb1]; · iexact Hb1
    isplitl [Hb2]; · iexact Hb2
    iexact Hc
  iexact Hr

/-- EXIT. The kernel's arrays at contents `G` — the two windows on the weights' buffer at the same contents — and the
    unscoped rest are the core's unscoped buffers at any contents `V'` that has the arrays at `G` and agrees with
    the entry contents off them. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ)))
    (h0 : G 0 = V' main_v0) (h1 : G 1 = V' main_arg1) (h2 : G 2 = V' main_arg1) (h3 : G 3 = V' main_v1)
    (hrest : ∀ b, b ∉ Finset.univ.image (Pipeline.arrRef spec0) → V' b = V c b) :
    iprop((dat0 V c).arrays G ∗ Pipeline.unscopedRest spec0 c (V c)) ⊢ (unscopedBufs c V' : sProp 𝕄) := by
  have hs : (unscopedBufs c V' : sProp 𝕄) = iprop(Pipeline.arrBufs spec0 c V' ∗ Pipeline.unscopedRest spec0 c V') :=
    Pipeline.unscopedBufs_split₀ cfgs 0 winFacts₀0.arr_unscoped c V'
  rw [hs, arrBufs0_eq, arrays0_eq, h0, h1, h2, h3]
  have hr : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by rw [hrest b (Finset.mem_sdiff.mp hb).2]
  rw [hr]
  iintro ⟨⟨Ha, Hb1, Hb2, Hc⟩, Hr⟩
  isplitr [Hr]
  · isplitl [Ha]; · iexact Ha
    isplitr [Hc]
    · iapply (pointsTo_share (PosShare.mem_left_op_right fullShare)).2
      isplitl [Hb1]; · iexact Hb1
      iexact Hb2
    iexact Hc
  iexact Hr

end Cert.KernelIdeal.Hand

end
-- ==== Proof.KI.R1Common.lean ====
/- The second call (the down projection) on its 8 x 12 grid: what its frame argument shares between the two cases
   of the body's one conditional. Window 0 is the hidden activations' block (e, 0, k), window 1 the down weights'
   block (e, k, 0), window 2 the output's block (e, 0, 0), which stays in place while k runs over 0..11 and is
   written back only at k = 11. The body zeroes the output block when k = 0 and then adds h · w to it. -/
import proofs.«121133_j45956150067877_2_alg».proof.Proof.Gen.KernelIdeal.Launch
import proofs.«121133_j45956150067877_2_alg».proof.Proof.Gen.KernelIdeal.Skeleton
import proofs.«121133_j45956150067877_2_alg».proof.Proof.Gen.KernelIdeal.Points
import Idealize.ShloMosaic.Lib.Pipeline.FrameBody
import Idealize.ShloMosaic.Lib.Ring
import Idealize.ShloMosaic.Lib.Tactic

-- membership in a rectangle of large extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region of the second call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: the reduction index k (coordinate 1)
    is zero. -/
abbrev cond1_0 (i : grid1.Coords) : Prop := (Scalar.cmpi .ne (Scalar.extui (Scalar.cmpi .eq (BitVec.ofNat 32 (i 1).val) 0#32)) 0#32) = 1#1
/-- It holds at the first point of each expert's row of twelve — decided over the grid. -/
theorem hcond1_0 : ∀ t : Fin cfg1.N, cond1_0 (grid1.coords t) ↔ t.val % 12 = 0 :=
  (by decide +kernel : ∀ t : Fin grid1.N, cond1_0 (grid1.coords t) ↔ t.val % 12 = 0)

/-! ## The staging memrefs -/

/-- One staging buffer of output window 2, through which its contents are stated (the choice does not matter). -/
abbrev VO1_2 : View sig .tc .vmem S1x1024x2048 .f32 := (Memref.whole cc1_stg2_0 : Memref sig .tc .vmem S1x1024x2048 .f32).view
/-- Each window's current staging memref at point `t`, spelled as the pipeline passes it, and its wholeness. -/
abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x2048 .f32 := win1_2.stage (cfg1.slots t 2)
abbrev hs1_2 (t : Fin cfg1.N) : (ms1_2 t).IsWhole := hstage1_2 ((cfg1.slots t 2).cast nbuf1_2)

end Cert.KernelIdeal.Hand

end
-- ==== Proof.KI.R1RunA.lean ====
/- The second call's body in the case k = 0 (the conditional taken): the output block is first overwritten with
   zeros, then the input blocks and the (now zero) output block are loaded and zeros + h · w is stored over it. -/
import proofs.«121133_j45956150067877_2_alg».proof.Proof.KI.R1Common

-- membership in a rectangle of large extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region of the second call is entered
variable (V : (c : Dev nD) → (b : Ref sig .tc) → Buf (Elt F) ((c : Thread nD τ).loc b))

-- (the run's proof term is large: the definition's epilogue walks it past the default budget)
set_option maxHeartbeats 1000000 in
/-- What the body's stores leave in the output's staging memref, as pieces (last first), in the case k = 0, with
    the proof that on whole staging memrefs — the inputs' at their contents `x0`, `x1`, the output's at anything —
    the body runs to the continuation holding the inputs' as they were and the output's buffer with its pieces
    written. The pieces are the witness the symbolic run finds. -/
noncomputable def kernelRun1_A (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : cond1_0 i)
    (x0 : Vec F S1x1024x512 .bf16) (x1 : Vec F S1x512x2048 .f32) :
    { L2 : List (View.Piece (Elt F) S1x1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__down_kernel i arg2 harg2 arg3 harg3 arg4 harg4) K } := by
  refine ⟨?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.R1RunB.lean ====
/- The second call's body in the case k ≠ 0 (the conditional not taken): the input blocks and the output block's
   running contents are loaded and (running contents) + h · w is stored over the output block. -/
import proofs.«121133_j45956150067877_2_alg».proof.Proof.KI.R1RunA

-- membership in a rectangle of large extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region of the second call is entered
variable (V : (c : Dev nD) → (b : Ref sig .tc) → Buf (Elt F) ((c : Thread nD τ).loc b))

-- (the run's proof term is large: the definition's epilogue walks it past the default budget)
set_option maxHeartbeats 1000000 in
/-- What the body's store leaves in the output's staging memref, as pieces, in the case k ≠ 0, with the proof that
    on whole staging memrefs — the inputs' at their contents `x0`, `x1`, the output's at its running contents
    `xo2` — the body runs to the continuation holding the inputs' as they were and the output's buffer with its
    pieces written. The pieces are the witness the symbolic run finds. -/
noncomputable def kernelRun1_B (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : ¬cond1_0 i)
    (x0 : Vec F S1x1024x512 .bf16) (x1 : Vec F S1x512x2048 .f32) (xo2 : Vec F S1x1024x2048 .f32) :
    { L2 : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__down_kernel i arg2 harg2 arg3 harg3 arg4 harg4) K } := by
  refine ⟨?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Region1.lean ====
/- The second call's half of the frame argument, at the contents `V` its region is entered with: what the
   output block's staging buffer holds after each grid point (zeros + h·w at k = 0, the previous contents + h·w
   otherwise), the pipeline's proof data, and the body obligation at every point. -/
import proofs.«121133_j45956150067877_2_alg».proof.Proof.KI.R1RunB

-- membership in a rectangle of large extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region of the second call is entered
variable (V : (c : Dev nD) → (b : Ref sig .tc) → Buf (Elt F) ((c : Thread nD τ).loc b))

/-! ## What each case leaves in the output's staging buffer -/

/-- In the case k = 0 the pieces stored into the output tile its block (two whole-block stores), so they cover it. -/
theorem cover1_A_2 (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : cond1_0 i)
    (x0 : Vec F S1x1024x512 .bf16) (x1 : Vec F S1x512x2048 .f32) (y : S1x1024x2048.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x1024x2048.size (by sl_kernel_rfl) y

/-- What the case k = 0 leaves in the output's staging buffer: its pieces read back over junk. -/
def out1_A_2 (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : cond1_0 i)
    (x0 : Vec F S1x1024x512 .bf16) (x1 : Vec F S1x512x2048 .f32) : Vec F S1x1024x2048 .f32 :=
  VO1_2.read (Elt F) (VO1_2.writes (Elt F) VO1_2.junk (kernelRun1_A c i arg2 harg2 arg3 harg3 arg4 harg4 hc0 x0 x1).1)

/-- In the case k ≠ 0 the piece stored into the output tiles its block (one whole-block store), so it covers it. -/
theorem cover1_B_2 (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : ¬cond1_0 i)
    (x0 : Vec F S1x1024x512 .bf16) (x1 : Vec F S1x512x2048 .f32) (xo2 : Vec F S1x1024x2048 .f32) (y : S1x1024x2048.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x1024x2048.size (by sl_kernel_rfl) y

/-- What the case k ≠ 0 leaves in the output's staging buffer: its pieces read back over junk. -/
def out1_B_2 (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc0 : ¬cond1_0 i)
    (x0 : Vec F S1x1024x512 .bf16) (x1 : Vec F S1x512x2048 .f32) (xo2 : Vec F S1x1024x2048 .f32) : Vec F S1x1024x2048 .f32 :=
  VO1_2.read (Elt F) (VO1_2.writes (Elt F) VO1_2.junk (kernelRun1_B c i arg2 harg2 arg3 harg3 arg4 harg4 hc0 x0 x1 xo2).1)

/-! ## What the output's buffer holds after each point -/

/-- The accumulation. What the output's staging buffer holds after the body at position `n`: at k = 0 what the
    first case leaves from the point's input blocks; otherwise what the second case leaves from them and from what
    this function gives at `n - 1` (the buffer is not written back in between). -/
def outsAt1 (c : Dev nD) : (n : ℕ) → n < cfg1.N → Vec F S1x1024x2048 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 12 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point with k = 0: the first case's contents. -/
theorem outsAt1_A (c : Dev nD) (t : Fin cfg1.N) (h0 : t.val % 12 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point with k ≠ 0: the second case's contents, over what the point before left. -/
theorem outsAt1_B (c : Dev nD) (t : Fin cfg1.N) (h0 : ¬t.val % 12 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the second call's pipeline on core `c`: the arrays as the region finds them (`V`); after
    the body at point `t` each input's buffer at its block and the output's at `outsAt1`; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point with k ≠ 0 the output's current staging buffer holds what the body left at the point before: the
    point is not the first, the buffer was not written back in between (that happens only after k = 11), and the
    window is live and uncut. -/
theorem before1_2_B (c : Dev nD) (t : Fin cfg1.N) (h0 : ¬t.val % 12 = 0) (d) :
    (dat1 V c).before 2 t d = (outsAt1 V c (t.val - 1) (Nat.lt_of_le_of_lt (Nat.sub_le _ _) t.isLt)) := by
  have hN : t.val < 96 := lt_of_lt_of_eq t.isLt (show cfg1.N = 96 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks; the closed form of the condition says which case
    the point is in; at k ≠ 0 the output's memref holds what the point before left; so the case's run applies. The
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 96 := lt_of_lt_of_eq t.isLt (show cfg1.N = 96 from N_1)
  by_cases h0 : t.val % 12 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program on the TensorCores: a reshape of the tokens, the gate/up kernel, the down kernel, a reshape of
  the result — run from any memory, with the contents of every buffer named at each boundary between two of these
  four items.  From the last boundary's contents follow both that the three argument arrays end as they were
  launched and what the result array holds.
-/
import proofs.«121133_j45956150067877_2_alg».proof.Proof.KI.Region0
import proofs.«121133_j45956150067877_2_alg».proof.Proof.KI.Region1
import proofs.«121133_j45956150067877_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the tokens' reshape: what the gate/up kernel is entered from. -/
abbrev B1 : Dev nD → Valuation τ sig (Elt F) := fun c => StableHlo.after hostOps0 (B0 m ρ c)
abbrev E0 : (c : Dev nD) → (b : Ref sig .tc) → Buf (Elt F) ((c : Thread nD τ).loc b) := fun c b => B1 m ρ c b
/-- After the gate/up kernel: the hidden activations at what its write-backs leave, every other buffer as entered. -/
def B2 (c : Dev nD) : Valuation τ sig (Elt F) :=
  Function.update (B1 m ρ c) (Proc.devRef .tc main_v1) ((dat0 (E0 m ρ) c).arrAt 3 cfg0.N)
abbrev E1 : (c : Dev nD) → (b : Ref sig .tc) → Buf (Elt F) ((c : Thread nD τ).loc b) := fun c b => B2 m ρ c b
/-- After the down kernel: its output array at what its write-backs leave, every other buffer as entered. -/
def B3 (c : Dev nD) : Valuation τ sig (Elt F) :=
  Function.update (B2 m ρ c) (Proc.devRef .tc main_v2) ((dat1 (E1 m ρ) c).arrAt 2 cfg1.N)
abbrev E2 : (c : Dev nD) → (b : Ref sig .tc) → Buf (Elt F) ((c : Thread nD τ).loc b) := fun c b => B3 m ρ c b
/-- After the result's reshape. -/
abbrev B4 : Dev nD → Valuation τ sig (Elt F) := fun c => StableHlo.after hostOps2 (B3 m ρ c)

theorem B2_self (c : Dev nD) : B2 m ρ c (Proc.devRef .tc main_v1) = (dat0 (E0 m ρ) c).arrAt 3 cfg0.N := by
  unfold B2; exact Function.update_self ..
theorem B2_of_ne (c : Dev nD) (b : Ref sig .tc) (hb : b ≠ main_v1) : B2 m ρ c (Proc.devRef .tc b) = B1 m ρ c (Proc.devRef .tc b) := by
  unfold B2; exact Function.update_of_ne (StableHlo.devRef_ne_of_ne hb) ..
theorem B3_self (c : Dev nD) : B3 m ρ c (Proc.devRef .tc main_v2) = (dat1 (E1 m ρ) c).arrAt 2 cfg1.N := by
  unfold B3; exact Function.update_self ..
theorem B3_of_ne (c : Dev nD) (b : Ref sig .tc) (hb : b ≠ main_v2) : B3 m ρ c (Proc.devRef .tc b) = B2 m ρ c (Proc.devRef .tc b) := by
  unfold B3; exact Function.update_of_ne (StableHlo.devRef_ne_of_ne hb) ..
theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B4_of (c : Dev nD) (r : Ref sig .tc) (h : r ∉ hostOps2_W) : B4 m ρ c (Proc.devRef .tc r) = B3 m ρ c (Proc.devRef .tc r) :=
  StableHlo.after_of_writes_sub hostOps2 _ hostOps2_writes h

/-- No item writes an argument array: the last boundary's contents at it are the launch contents. -/
theorem B4_main_arg0 (c : Dev nD) : B4 m ρ c (Proc.devRef .tc main_arg0) = m ((c : Thread nD τ).loc main_arg0) :=
  (B4_of m ρ c main_arg0 (by decide)).trans <| (B3_of_ne m ρ c main_arg0 (by decide)).trans <| (B2_of_ne m ρ c main_arg0 (by decide)).trans <| (B1_of m ρ c main_arg0 (by decide)).trans rfl
theorem B4_main_arg1 (c : Dev nD) : B4 m ρ c (Proc.devRef .tc main_arg1) = m ((c : Thread nD τ).loc main_arg1) :=
  (B4_of m ρ c main_arg1 (by decide)).trans <| (B3_of_ne m ρ c main_arg1 (by decide)).trans <| (B2_of_ne m ρ c main_arg1 (by decide)).trans <| (B1_of m ρ c main_arg1 (by decide)).trans rfl
theorem B4_main_arg2 (c : Dev nD) : B4 m ρ c (Proc.devRef .tc main_arg2) = m ((c : Thread nD τ).loc main_arg2) :=
  (B4_of m ρ c main_arg2 (by decide)).trans <| (B3_of_ne m ρ c main_arg2 (by decide)).trans <| (B2_of_ne m ρ c main_arg2 (by decide)).trans <| (B1_of m ρ c main_arg2 (by decide)).trans rfl

/-! ## The proof data family and the thread state -/

abbrev admH : (p : Fin 2) → (pcfgs (F := F) p).Adm := fun p => (cfgs p).toPCfg_adm
/-- Each kernel's proof data at the contents it is entered from. -/
def pdatsH : (p : Fin 2) → (c : Dev nD) → Dat τ (Elt F) Unit ℕ (UR sig nD τ) ℕ (Pipeline.pin (pcfgs (F := F)) admH p) c
  | ⟨0, _⟩ => fun c => dat0 (E0 m ρ) c
  | ⟨1, _⟩ => fun c => dat1 (E1 m ρ) c
abbrev 𝒱H : Variants := Variants.none
abbrev LH : GSem nD τ sig → Finset Unit := fun _ => ∅
abbrev lvH : GSem nD τ sig → Unit → ℕ := fun _ _ => 0
/-- What rides beside the buffers through every item: the generator register at some state, and that the core owes
    nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B4 m ρ c) ∗ ∃ r, prngReg c r)

/-! ## The two kernels as segments -/

set_option backward.isDefEq.respectTransparency.types false in
/-- The gate/up kernel between the boundaries `B1` and `B2`: its arrays split out of the unscoped buffers (the
    weights' buffer into two halves) and put back with the hidden activations at what the write-backs leave. -/
def reg0H : Pipeline.RegionSeg (pcfgs (F := F)) admH (pdatsH m ρ) () defs₀ 𝒱H LH lvH 0 where
  win := winFacts₀0
  block_pos := block_pos0
  stage_whole := stage_whole0
  K := PEmpty
  osem k := k.elim
  ho := Pipeline.OwnSemFacts.none _
  hbody c := (body_obligation0 (E0 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := arrays0_of_unscopedBufs (E0 m ρ) c ((pdatsH m ρ 0 c).arrAt · 0) rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (E0 m ρ) c (E1 m ρ c) ((pdatsH m ρ 0 c).arrAt · cfg0.N)
      (((dat0 (E0 m ρ) c).arrAt_in 0 rfl _).trans ((A_eq0 (E0 m ρ) c 0).trans (B2_of_ne m ρ c main_v0 (by decide)).symm))
      (((dat0 (E0 m ρ) c).arrAt_in 1 rfl _).trans ((A_eq0 (E0 m ρ) c 1).trans (B2_of_ne m ρ c main_arg1 (by decide)).symm))
      (((dat0 (E0 m ρ) c).arrAt_in 2 rfl _).trans ((A_eq0 (E0 m ρ) c 2).trans (B2_of_ne m ρ c main_arg1 (by decide)).symm))
      (B2_self m ρ c).symm
      (fun b hb => B2_of_ne m ρ c b fun e => hb (Finset.mem_image.mpr ⟨3, Finset.mem_univ _, e.symm⟩))
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

theorem hF1 (c : Dev nD) (w : Fin cfg1.W) : (dat1 (E1 m ρ) c).arrAt w cfg1.N = E2 m ρ c (Pipeline.arrRef spec1 w) := by
  match w with
  | ⟨0, _⟩ => exact ((dat1 (E1 m ρ) c).arrAt_in 0 rfl _).trans ((A_eq1 (E1 m ρ) c 0).trans (B3_of_ne m ρ c main_v1 (by decide)).symm)
  | ⟨1, _⟩ => exact ((dat1 (E1 m ρ) c).arrAt_in 1 rfl _).trans ((A_eq1 (E1 m ρ) c 1).trans (B3_of_ne m ρ c main_arg2 (by decide)).symm)
  | ⟨2, _⟩ => exact (B3_self m ρ c).symm
theorem hrest1 (c : Dev nD) : ∀ b, b ∉ Finset.univ.image (Pipeline.arrRef spec1) → E2 m ρ c b = E1 m ρ c b :=
  fun b hb => B3_of_ne m ρ c b fun e => hb (Finset.mem_image.mpr ⟨2, Finset.mem_univ _, e.symm⟩)

set_option backward.isDefEq.respectTransparency.types false in
/-- The down kernel between the boundaries `B2` and `B3`: three windows on three distinct buffers, all at the full
    share. -/
def reg1H : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ LH lvH 1 fun _ _ => rfl
  pre c := iprop(StableHlo.held (c : Thread nD τ) (Pipeline.ucRefs τ sig) (B2 m ρ c) ∗ RH c)
  post c := iprop(StableHlo.held (c : Thread nD τ) (Pipeline.ucRefs τ sig) (B3 m ρ c) ∗ RH c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E1 m ρ c) (E2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .host (hsegH hostOps0 hostOps0_sub hostOps0_fresh (B0 m ρ)),
    .region (reg0H m ρ),
    .region (reg1H m ρ),
    .host (hsegH hostOps2 hostOps2_sub hostOps2_fresh (B3 m ρ)) ]

theorem main_runH (c : Dev nD) : main (F := F) c = Pipeline.Seg.run (segsH m ρ) := (main_chain c).trans (by chain_rfl)

set_option backward.isDefEq.respectTransparency.types false in
/-- From any memory with zero counters every weakly fair execution of the program on the TensorCores terminates,
    nothing faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun _ => .rfl, fun c => by
      show iprop(StableHlo.held (c : Thread nD τ) (Pipeline.ucRefs τ sig) (B4 m ρ c) ∗ RH c)
        ⊢ iprop(TnH m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The three argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c)⟩) (run_all m ρ)

end Cert.KernelIdeal.Hand

end
-- ==== Proof.Spec.lean ====
/-
  The function both programs compute, read index by index over the extended reals.

  Eight experts, each with its own 1024 rows of the input `x` (2048 features), its own first weight matrix
  (2048 × 12288, whose first 6144 columns are the "gate" half and whose last 6144 columns are the "up" half) and its
  own second weight matrix (6144 × 2048).  For expert `e`, row `t` and hidden column `n`:

      gate e t n = ∑ d, x (e, t, d) * w (e, d, n)
      up   e t n = ∑ d, x (e, t, d) * w (e, d, n + 6144)
      hidden (e, t, n) = (gate * logistic gate) * up

  and for output feature `d`:

      down (e, t, d) = ∑ i, hidden (e, t, i) * w2 (e, i, d).

  Every sum is a finite sum in the extended reals, an additive commutative monoid: nothing here asks a value to be
  finite.  The bracketing `(g * logistic g) * u` is kept as written: no product is re-associated.
-/
import Idealize.ShloMosaic.PureOps.Ideal
import Idealize.ShloMosaic.Lib.ValueIdx

noncomputable section

open scoped BigOperators

namespace Cert.Moe

open Idealize.ShloMosaic Idealize.ShloMosaic.ValueIdx

/-- The input, one slab of 1024 rows per expert: 8 × 1024 × 2048. -/
abbrev SX : Shape := ⟨3, ![8, 1024, 2048]⟩
/-- The first weights: 8 × 2048 × 12288 (gate columns, then up columns). -/
abbrev SW1 : Shape := ⟨3, ![8, 2048, 12288]⟩
/-- The hidden activations: 8 × 1024 × 6144. -/
abbrev SH : Shape := ⟨3, ![8, 1024, 6144]⟩
/-- The second weights: 8 × 6144 × 2048. -/
abbrev SW2 : Shape := ⟨3, ![8, 6144, 2048]⟩

/-- A hidden column is a column of the gate half of the first weights. -/
theorem gate_col_lt (n : Fin 6144) : n.val < 12288 := Nat.lt_of_lt_of_le n.isLt (by decide)
/-- Shifted by 6144 it is a column of the up half. -/
theorem up_col_lt (n : Fin 6144) : n.val + 6144 < 12288 := Nat.add_lt_add_right n.isLt 6144

/-- Row `t` of expert `e` against gate column `n`: `∑ d, x (e, t, d) * w (e, d, n)`. -/
def gate (x : FVec Ideal SX .f32) (w : FVec Ideal SW1 .f32) (e : Fin 8) (t : Fin 1024) (n : Fin 6144) : EReal :=
  ∑ d : Fin 2048, x (ix3 e t d) * w (ix3 e d (⟨n.val, gate_col_lt n⟩ : Fin 12288))

/-- Row `t` of expert `e` against up column `n`: `∑ d, x (e, t, d) * w (e, d, n + 6144)`. -/
def up (x : FVec Ideal SX .f32) (w : FVec Ideal SW1 .f32) (e : Fin 8) (t : Fin 1024) (n : Fin 6144) : EReal :=
  ∑ d : Fin 2048, x (ix3 e t d) * w (ix3 e d (⟨n.val + 6144, up_col_lt n⟩ : Fin 12288))

/-- The hidden activations: `(gate * logistic gate) * up` at every expert, row and hidden column. -/
def hidden (x : FVec Ideal SX .f32) (w : FVec Ideal SW1 .f32) : FVec Ideal SH .f32 := fun i =>
  (gate x w (i 0) (i 1) (i 2) * Ideal.logistic (gate x w (i 0) (i 1) (i 2))) * up x w (i 0) (i 1) (i 2)

/-- The output: the hidden row against column `d` of the expert's second weights. -/
def down (h : FVec Ideal SH .f32) (w2 : FVec Ideal SW2 .f32) : FVec Ideal SX .f32 := fun i =>
  ∑ k : Fin 6144, h (ix3 (i 0) (i 1) k) * w2 (ix3 (i 0) k (i 2))

/-- `hidden` read at expert `e`, row `t`, hidden column `n`. -/
theorem hidden_apply (x : FVec Ideal SX .f32) (w : FVec Ideal SW1 .f32) (e : Fin 8) (t : Fin 1024) (n : Fin 6144) :
    hidden x w (ix3 e t n) = (gate x w e t n * Ideal.logistic (gate x w e t n)) * up x w e t n := rfl

/-- `down` read at expert `e`, row `t`, output feature `d`. -/
theorem down_apply (h : FVec Ideal SH .f32) (w2 : FVec Ideal SW2 .f32) (e : Fin 8) (t : Fin 1024) (d : Fin 2048) :
    down h w2 (ix3 e t d) = ∑ k : Fin 6144, h (ix3 e t k) * w2 (ix3 e k d) := rfl

end Cert.Moe

end
-- ==== Proof.LibLogisticForm.lean ====
/-
  The logistic function written as a quotient, over the extended reals.

  A program may apply the logistic function as one operation or spell it `1 / (1 + e^(-z))` with the 32-bit pattern of
  the number one, a negation, an exponential, a sum and a quotient. Over the extended reals the two are the same function:
  the pattern `0x3F800000` denotes one, and the logistic function is defined as that quotient, with the conventions
  `e^(-∞) = 0` and `1 / ∞ = 0` giving the limits `1` at `+∞` and `0` at `-∞`.
-/
import Idealize.ShloMosaic.PureOps.Ideal

noncomputable section

namespace Idealize.ShloMosaic.LogisticForm

open Idealize.ShloMosaic

/-- The bit pattern `0x3F800000` of the 32-bit format denotes the number one. -/
theorem one_f32 : Ideal.ofBits .f32 0x3F800000#32 = 1 := by
  simp [Ideal.ofBits, Ideal.ieee, -EReal.coe_mul]; norm_num

/-- One over one plus the exponential of the negation, in the host's operations and with the number one given by its
    32-bit pattern, is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, one_f32]
  rfl

end Idealize.ShloMosaic.LogisticForm

end
-- ==== Proof.RefIsSpec.lean ====
/-
  The reference program computes the specification.

  Read one operation at a time, the reference reshapes the input into one slab per expert, contracts it with the first
  weights, cuts the result into its first 6144 columns (the gate) and its last 6144 columns (the up), multiplies the gate
  by `1 / (1 + e^(-gate))` (the number one given by its 32-bit pattern), then by the up, contracts with the second
  weights and reshapes back.  Index by index this is `down (hidden x w) w2`: each contraction is the finite sum of the
  specification, a slice reads the same row at column `n` or `6144 + n`, and the quotient is the logistic function.
  Nothing is re-associated and no value is asked to be finite.
-/
import proofs.«121133_j45956150067877_2_alg».proof.Proof.Spec
import proofs.«121133_j45956150067877_2_alg».proof.Proof.Gen.ReferenceIdeal.Read
import proofs.«121133_j45956150067877_2_alg».proof.Proof.LibLogisticForm

noncomputable section

open scoped BigOperators

namespace Cert.Moe

open Cert.ReferenceIdeal Cert.ReferenceIdeal.Gen Cert.ReferenceIdeal.Read
open Idealize.ShloMosaic Idealize.ShloMosaic.ValueIdx

variable (a0 : FVec Ideal S8192x2048 .f32) (a1 : FVec Ideal S8x2048x12288 .f32) (a2 : FVec Ideal S8x6144x2048 .f32)

/-! ## Where each stage reads its operands, in coordinates -/

/-- The first contraction's left operand for gate column `n`: row `t` of expert `e`, feature `k`. -/
theorem lidx_gate (e : Fin 8) (t : Fin 1024) (n : Fin 6144) (k : Fin 2048) :
    lidx_main_v1 (idx_main_v2 (ix3 e t n)) k = ix3 e t k :=
  funext fun a => Fin.ext (by match a with | ⟨0, _⟩ => rfl | ⟨1, _⟩ => rfl | ⟨2, _⟩ => rfl)

/-- Its right operand: feature `k` of expert `e`, column `n`. -/
theorem ridx_gate (e : Fin 8) (t : Fin 1024) (n : Fin 6144) (k : Fin 2048) :
    ridx_main_v1 (idx_main_v2 (ix3 e t n)) k = ix3 e k (⟨n.val, gate_col_lt n⟩ : Fin 12288) :=
  funext fun a => Fin.ext (by match a with | ⟨0, _⟩ => rfl | ⟨1, _⟩ => rfl | ⟨2, _⟩ => rfl)

/-- The same for up column `n`: the left operand is the same row … -/
theorem lidx_up (e : Fin 8) (t : Fin 1024) (n : Fin 6144) (k : Fin 2048) :
    lidx_main_v1 (idx_main_v3 (ix3 e t n)) k = ix3 e t k :=
  funext fun a => Fin.ext (by match a with | ⟨0, _⟩ => rfl | ⟨1, _⟩ => rfl | ⟨2, _⟩ => rfl)

/-- … and the right operand is column `6144 + n = n + 6144`. -/
theorem ridx_up (e : Fin 8) (t : Fin 1024) (n : Fin 6144) (k : Fin 2048) :
    ridx_main_v1 (idx_main_v3 (ix3 e t n)) k = ix3 e k (⟨n.val + 6144, up_col_lt n⟩ : Fin 12288) :=
  funext fun a => Fin.ext (by
    match a with
    | ⟨0, _⟩ => rfl
    | ⟨1, _⟩ => rfl
    | ⟨2, _⟩ => exact Nat.add_comm 6144 n.val)

/-- The second contraction's left operand: row `t` of expert `e`, hidden column `k`. -/
theorem lidx_down (e : Fin 8) (t : Fin 1024) (d : Fin 2048) (k : Fin 6144) :
    lidx_main_v6 (ix3 e t d) k = ix3 e t k :=
  funext fun a => Fin.ext (by match a with | ⟨0, _⟩ => rfl | ⟨1, _⟩ => rfl | ⟨2, _⟩ => rfl)

/-- Its right operand: hidden column `k` of expert `e`, output feature `d`. -/
theorem ridx_down (e : Fin 8) (t : Fin 1024) (d : Fin 2048) (k : Fin 6144) :
    ridx_main_v6 (ix3 e t d) k = ix3 e k d :=
  funext fun a => Fin.ext (by match a with | ⟨0, _⟩ => rfl | ⟨1, _⟩ => rfl | ⟨2, _⟩ => rfl)

/-! ## The stages -/

/-- The gate slice is the specification's gate of the reshaped input. -/
theorem gate_stage (e : Fin 8) (t : Fin 1024) (n : Fin 6144) :
    val_main_v2 (F := Ideal) a0 a1 (ix3 e t n) = gate (val_main_v0 (F := Ideal) a0) a1 e t n := by
  rw [val_main_v2_apply, val_main_v1_apply]
  unfold gate
  refine Finset.sum_congr rfl fun k _ => ?_
  rw [lidx_gate, ridx_gate]

/-- The up slice is the specification's up of the reshaped input. -/
theorem up_stage (e : Fin 8) (t : Fin 1024) (n : Fin 6144) :
    val_main_v3 (F := Ideal) a0 a1 (ix3 e t n) = up (val_main_v0 (F := Ideal) a0) a1 e t n := by
  rw [val_main_v3_apply, val_main_v1_apply]
  unfold up
  refine Finset.sum_congr rfl fun k _ => ?_
  rw [lidx_up, ridx_up]

/-- The product `(gate * (1 / (1 + e^(-gate)))) * up` is the specification's hidden activation. -/
theorem hidden_stage (e : Fin 8) (t : Fin 1024) (n : Fin 6144) :
    val_main_v5 (F := Ideal) a0 a1 (ix3 e t n) = hidden (val_main_v0 (F := Ideal) a0) a1 (ix3 e t n) := by
  rw [val_main_v5_apply, val_main_v4_apply, val_main_call0_v5_apply, val_main_call0_v4_apply,
    val_main_call0_cst_0_apply, val_main_call0_v3_apply, val_main_call0_v2_apply, val_main_call0_cst_apply,
    val_main_call0_v1_apply, val_main_call0_v0_apply, Idealize.ShloMosaic.LogisticForm.logistic_spelt,
    gate_stage, up_stage, hidden_apply]
  rfl

/-- The second contraction of the hidden activations is the specification's output. -/
theorem down_stage :
    val_main_v6 (F := Ideal) a0 a1 a2 = down (hidden (val_main_v0 (F := Ideal) a0) a1) a2 := by
  funext i
  obtain ⟨e, t, d, rfl⟩ : ∃ (e : Fin 8) (t : Fin 1024) (d : Fin 2048), i = ix3 e t d := ⟨i 0, i 1, i 2, eq_ix3 i⟩
  rw [val_main_v6_apply, down_apply]
  refine Finset.sum_congr rfl fun k _ => ?_
  rw [lidx_down, ridx_down, hidden_stage]

/-! ## The whole reference -/

/-- The reference's result, as a term of its three arguments, is the specification's output of the reshaped input,
    reshaped back. -/
theorem ref_is_spec :
    shapeCast _ (Host.dotGeneral (F := Ideal) dot_S8x1024x6144_S8x6144x2048_S8x1024x2048_2_1_1_2_0_0 none (mulf (mulf (extractStridedSlice S8x1024x6144 ![0, 0, 0] (Host.dotGeneral (F := Ideal) dot_S8x1024x2048_S8x2048x12288_S8x1024x12288_2_1_1_2_0_0 none (shapeCast _ a0 shapeCasts_S8192x2048_S8x1024x2048) a1) slices_S8x1024x12288_S8x1024x6144_0_0_0) (Host.divf (broadcastInDim S8x1024x6144 ![] bcast_S_S8x1024x6144 (constant (F := Ideal) S_ .f32 0x3F800000#32)) (addf (broadcastInDim S8x1024x6144 ![] bcast_S_S8x1024x6144 (constant (F := Ideal) S_ .f32 0x3F800000#32)) (Host.exp (Host.negf (extractStridedSlice S8x1024x6144 ![0, 0, 0] (Host.dotGeneral (F := Ideal) dot_S8x1024x2048_S8x2048x12288_S8x1024x12288_2_1_1_2_0_0 none (shapeCast _ a0 shapeCasts_S8192x2048_S8x1024x2048) a1) slices_S8x1024x12288_S8x1024x6144_0_0_0)))))) (extractStridedSlice S8x1024x6144 ![0, 0, 6144] (Host.dotGeneral (F := Ideal) dot_S8x1024x2048_S8x2048x12288_S8x1024x12288_2_1_1_2_0_0 none (shapeCast _ a0 shapeCasts_S8192x2048_S8x1024x2048) a1) slices_S8x1024x12288_S8x1024x6144_0_0_6144)) a2) shapeCasts_S8x1024x2048_S8192x2048
      = shapeCast _ (down (hidden (shapeCast _ a0 shapeCasts_S8192x2048_S8x1024x2048) a1) a2) shapeCasts_S8x1024x2048_S8192x2048 :=
  (val_main_v7_eq (F := Ideal) a0 a1 a2).trans
    (congrArg (fun y => shapeCast S8192x2048 y shapeCasts_S8x1024x2048_S8192x2048) (down_stage a0 a1 a2))

end Cert.Moe

end
-- ==== Proof.KI.ValueMain.lean ====
/-
  What the program leaves in its result array, as a function of the three argument arrays at launch.

  The program is four items in a row: the tokens reshaped into one slab per expert; the gate/up kernel, which leaves
  the hidden activations of that slab and the first weights; the down kernel, which leaves the output of those
  activations and the second weights; the output reshaped back to one row per token.  No item writes an argument
  array, and each item reads what the items before it left.  So once each kernel's array is known as a function of the
  arrays it was entered with, the result is the composition: `reshape (down (hidden (reshape a0) a1) a2)`.
-/
import proofs.«121133_j45956150067877_2_alg».proof.Proof.KI.Run
import proofs.«121133_j45956150067877_2_alg».proof.Proof.Spec

noncomputable section

namespace Cert.KernelIdeal.Hand

open Cert.KernelIdeal Cert.KernelIdeal.Gen
open Idealize.ShloMosaic Idealize.ShloMosaic.TcCoe
open Idealize.SL.Sem
open Idealize.ShloMosaic.StableHlo (after_cons after_nil reshape_result reshape_result_ne)

variable (m : (ℓ : Loc nD τ sig) → Buf (Elt Ideal) ℓ) (ρ : Dev nD → PrngReg)

/-! ## The two reshapes -/

/-- The gate/up kernel is entered with the tokens' array at the launch tokens reshaped. -/
theorem E0_main_v0 (c : Dev nD) :
    E0 (F := Ideal) m ρ c main_v0
      = shapeCast S8x1024x2048 (m ((c.tc : Thread nD τ).loc main_arg0)) shapeCasts_S8192x2048_S8x1024x2048 := by
  show StableHlo.after hostOps0 (B0 m ρ c) (Proc.devRef .tc main_v0) = _
  after_results
  rfl

/-- The result array is the down kernel's output array reshaped. -/
theorem B4_main_v3 (c : Dev nD) :
    B4 (F := Ideal) m ρ c (Proc.devRef .tc main_v3)
      = shapeCast S8192x2048 (B3 (F := Ideal) m ρ c (Proc.devRef .tc main_v2)) shapeCasts_S8x1024x2048_S8192x2048 := by
  show StableHlo.after hostOps2 (B3 m ρ c) (Proc.devRef .tc main_v3) = _
  after_results
  rfl

/-! ## The arrays the kernels are entered with that no earlier item wrote -/

/-- The gate/up kernel finds the first weights as launched. -/
theorem E0_main_arg1 (c : Dev nD) : E0 (F := Ideal) m ρ c main_arg1 = m ((c.tc : Thread nD τ).loc main_arg1) :=
  (B1_of m ρ c main_arg1 (by decide)).trans rfl

/-- The down kernel finds the second weights as launched. -/
theorem E1_main_arg2 (c : Dev nD) : E1 (F := Ideal) m ρ c main_arg2 = m ((c.tc : Thread nD τ).loc main_arg2) :=
  (B2_of_ne m ρ c main_arg2 (by decide)).trans ((B1_of m ρ c main_arg2 (by decide)).trans rfl)

/-! ## The result -/

section
variable
  (hH : ∀ (V : (c : Dev nD) → (b : Ref sig .tc) → Buf (Elt Ideal) ((c : Thread nD τ).loc b)) (c : Dev nD),
    (dat0 (F := Ideal) V c).arrAt 3 cfg0.N = Cert.Moe.hidden (V c main_v0) (V c main_arg1))
  (hD : ∀ (V : (c : Dev nD) → (b : Ref sig .tc) → Buf (Elt Ideal) ((c : Thread nD τ).loc b)) (c : Dev nD),
    (dat1 (F := Ideal) V c).arrAt 2 cfg1.N = Cert.Moe.down (V c main_v1) (V c main_arg2))
include hH hD

/-- The down kernel is entered with the hidden activations of the reshaped tokens and the first weights. -/
theorem E1_main_v1 (c : Dev nD) :
    E1 (F := Ideal) m ρ c main_v1
      = Cert.Moe.hidden (shapeCast S8x1024x2048 (m ((c.tc : Thread nD τ).loc main_arg0)) shapeCasts_S8192x2048_S8x1024x2048)
          (m ((c.tc : Thread nD τ).loc main_arg1)) := by
  refine (B2_self m ρ c).trans ((hH (E0 m ρ) c).trans ?_)
  rw [E0_main_v0, E0_main_arg1]

/-- The result array holds the output of the hidden activations of the reshaped tokens, reshaped back. -/
theorem result_value (c : Dev nD) :
    B4 (F := Ideal) m ρ c (Proc.devRef .tc main_v3)
      = shapeCast S8192x2048 (Cert.Moe.down (Cert.Moe.hidden (shapeCast S8x1024x2048 (m ((c.tc : Thread nD τ).loc main_arg0)) shapeCasts_S8192x2048_S8x1024x2048) (m ((c.tc : Thread nD τ).loc main_arg1))) (m ((c.tc : Thread nD τ).loc main_arg2))) shapeCasts_S8x1024x2048_S8192x2048 := by
  refine (B4_main_v3 m ρ c).trans (congrArg (fun y => shapeCast S8192x2048 y shapeCasts_S8x1024x2048_S8192x2048) ?_)
  refine (B3_self m ρ c).trans ((hD (E1 m ρ) c).trans ?_)
  rw [E1_main_v1 m ρ hH hD c, E1_main_arg2]

/-- From any memory with zero counters every weakly fair execution of the program terminates, nothing faulting, with
    the result array at that value and the three argument arrays as launched. -/
theorem run_value : θ_run defs (onTc (τ := τ) (main (F := Ideal))) ⟨m, fun _ => 0, ρ⟩ (fun r => ∀ c : Dev nD,
      r.2.mem ((c.tc : Thread nD τ).loc main_v3)
          = shapeCast S8192x2048 (Cert.Moe.down (Cert.Moe.hidden (shapeCast S8x1024x2048 (m ((c.tc : Thread nD τ).loc main_arg0)) shapeCasts_S8192x2048_S8x1024x2048) (m ((c.tc : Thread nD τ).loc main_arg1))) (m ((c.tc : Thread nD τ).loc main_arg2))) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (result_value m ρ hH hD c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c)⟩) (run_all m ρ)

end

end Cert.KernelIdeal.Hand

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.KI.Payloads.lean ====
/-
  The arithmetic of the two kernel bodies, read at one entry of the block they store, over the extended reals.

  The gate/up body stores, at entry (t, n) of its [1, 1024, 256] block, (g · logistic g) · u, where
  g = ∑ d, x(t, d) · wg(d, n) and u = ∑ d, x(t, d) · wu(d, n) are entries of two matrix products into a zero
  accumulator. The down body stores, at entry (t, d) of its [1, 1024, 2048] block, either 0 (its first step) or
  acc(t, d) + ∑ j, h(t, j) · wd(j, d). Over the extended reals the format changes are the identity and the casts
  between [1, a, b] and [a, b] only drop or add the leading coordinate 0.
-/
import proofs.«121133_j45956150067877_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«121133_j45956150067877_2_alg».proof.Proof.LibPlainMatmul

noncomputable section

namespace Cert.KernelIdeal.Pay

open Idealize.ShloMosaic Idealize.ShloMosaic.ValueIdx Cert.KernelIdeal

/-- A product of two matrices that arrive as [1, M, K] and [1, K, N] blocks (leading axis dropped, then a format change
    that is the identity here) into the zero accumulator, at entry (p, n): ∑ k, l(0, p, k) · r(0, k, n). -/
theorem block_matmul_apply {M K N : ℕ} {φ₁ φ₂ ψ₁ ψ₂ : FTy}
    (D : DotDims ⟨2, ![M, K]⟩ ⟨2, ![K, N]⟩ ⟨2, ![M, N]⟩) (hD : D = DotDims.plain M K N)
    (l : FVec Ideal ⟨3, ![1, M, K]⟩ φ₁) (r : FVec Ideal ⟨3, ![1, K, N]⟩ φ₂)
    (hl : (⟨3, ![1, M, K]⟩ : Shape).ShapeCasts ⟨2, ![M, K]⟩) (hr : (⟨3, ![1, K, N]⟩ : Shape).ShapeCasts ⟨2, ![K, N]⟩)
    (h₁ : ψ₁.bits < φ₁.bits) (h₂ : ψ₂.bits < φ₂.bits) (p : Fin M) (n : Fin N) :
    matmul D none (truncf ψ₁ (shapeCast ⟨2, ![M, K]⟩ l hl) h₁) (truncf ψ₂ (shapeCast ⟨2, ![K, N]⟩ r hr) h₂)
        (constant (F := Ideal) ⟨2, ![M, N]⟩ .f32 0x00000000#32) (ix2 p n)
      = ∑ k : Fin K, l (ix3 (0 : Fin 1) p k) * r (ix3 (0 : Fin 1) k n) := by
  refine (Cert.LibPlainMatmul.matmul_eq_plain_zero_apply D hD none _ _ p n).trans ?_
  refine Finset.sum_congr rfl fun k _ => ?_
  rw [truncf_apply, truncf_apply, shapeCast_1ab_ab_apply, shapeCast_1ab_ab_apply]

/-- The same when the left operand arrives in its final format (no format change on it). -/
theorem block_matmul_apply_left {M K N : ℕ} {φ₁ φ₂ ψ₂ : FTy}
    (D : DotDims ⟨2, ![M, K]⟩ ⟨2, ![K, N]⟩ ⟨2, ![M, N]⟩) (hD : D = DotDims.plain M K N)
    (l : FVec Ideal ⟨3, ![1, M, K]⟩ φ₁) (r : FVec Ideal ⟨3, ![1, K, N]⟩ φ₂)
    (hl : (⟨3, ![1, M, K]⟩ : Shape).ShapeCasts ⟨2, ![M, K]⟩) (hr : (⟨3, ![1, K, N]⟩ : Shape).ShapeCasts ⟨2, ![K, N]⟩)
    (h₂ : ψ₂.bits < φ₂.bits) (p : Fin M) (n : Fin N) :
    matmul D none (shapeCast ⟨2, ![M, K]⟩ l hl) (truncf ψ₂ (shapeCast ⟨2, ![K, N]⟩ r hr) h₂)
        (constant (F := Ideal) ⟨2, ![M, N]⟩ .f32 0x00000000#32) (ix2 p n)
      = ∑ k : Fin K, l (ix3 (0 : Fin 1) p k) * r (ix3 (0 : Fin 1) k n) := by
  refine (Cert.LibPlainMatmul.matmul_eq_plain_zero_apply D hD none _ _ p n).trans ?_
  refine Finset.sum_congr rfl fun k _ => ?_
  rw [truncf_apply, shapeCast_1ab_ab_apply, shapeCast_1ab_ab_apply]

/-- The gate/up body's stored block at entry (0, t, n). -/
theorem pay0 (v0 : Vec Ideal S1x1024x2048 .f32) (v3 v6 : Vec Ideal S1x2048x256 .f32) (t : Fin 1024) (n : Fin 256) :
    Gen.k0_pay1 (F := Ideal) v0 v3 v6 (ix3 (0 : Fin 1) t n)
      = ((∑ d : Fin 2048, v0 (ix3 (0 : Fin 1) t d) * v3 (ix3 (0 : Fin 1) d n))
          * Ideal.logistic (∑ d : Fin 2048, v0 (ix3 (0 : Fin 1) t d) * v3 (ix3 (0 : Fin 1) d n)))
        * (∑ d : Fin 2048, v0 (ix3 (0 : Fin 1) t d) * v6 (ix3 (0 : Fin 1) d n)) := by
  unfold Gen.k0_pay1
  refine (shapeCast_ab_1ab_apply _ _ (0 : Fin 1) t n).trans ?_
  rw [truncf_apply, mulf_apply, mulf_apply]
  show (_ * FloatOps.logistic _) * _ = _
  rw [Ideal.logistic_def]
  rw [block_matmul_apply dot_S1024x2048_S2048x256_S1024x256_1_0_0_1_n_n rfl v0 v3,
    block_matmul_apply dot_S1024x2048_S2048x256_S1024x256_1_0_0_1_n_n rfl v0 v6]

/-- The down body's first-step block (all zeros) at entry (0, t, d). -/
theorem pay1_zero (t : Fin 1024) (d : Fin 2048) : Gen.k1_pay1 (F := Ideal) (ix3 (0 : Fin 1) t d) = 0 := by
  unfold Gen.k1_pay1
  refine (shapeCast_ab_1ab_apply _ _ (0 : Fin 1) t d).trans ?_
  rw [broadcast_apply]
  exact Ideal.ofBits_zero_f32

/-- The down body's accumulated block at entry (0, t, d). -/
theorem pay2 (v3 : Vec Ideal S1x1024x512 .bf16) (v5 : Vec Ideal S1x512x2048 .f32) (v8 : Vec Ideal S1x1024x2048 .f32)
    (t : Fin 1024) (d : Fin 2048) :
    Gen.k1_pay2 (F := Ideal) v3 v5 v8 (ix3 (0 : Fin 1) t d)
      = v8 (ix3 (0 : Fin 1) t d) + ∑ j : Fin 512, v3 (ix3 (0 : Fin 1) t j) * v5 (ix3 (0 : Fin 1) j d) := by
  unfold Gen.k1_pay2
  refine (shapeCast_ab_1ab_apply _ _ (0 : Fin 1) t d).trans ?_
  rw [addf_apply, shapeCast_1ab_ab_apply,
    block_matmul_apply_left dot_S1024x512_S512x2048_S1024x2048_1_0_0_1_n_n rfl v3 v5]

end Cert.KernelIdeal.Pay

end
-- ==== Proof.KI.Value0.lean ====
/-
  The hidden-activation array after the gate/up kernel, as one function of the arrays the kernel finds.

  The kernel's 8 × 24 grid points each write back one 1 × 1024 × 256 block of the 8 × 1024 × 6144 array: point
  t = 24 e + n writes rows 0 … 1023, columns 256 n … 256 n + 255 of expert e.  Its three input blocks are expert e's
  token slab, and columns 256 n … and 256 (n + 24) … of expert e's weights: the gate columns and, 6144 further on, the
  up columns of the same hidden columns.  So the block it writes is the block of
  hidden (e, t, n) = (g · logistic g) · u,  g = ∑ d, x (e, t, d) · w (e, d, n),  u = ∑ d, x (e, t, d) · w (e, d, n + 6144),
  and the 192 blocks tile the array: entry (e, t, n) is in the block of point 24 e + n / 256.
-/
import proofs.«121133_j45956150067877_2_alg».proof.Proof.KI.Region0
import proofs.«121133_j45956150067877_2_alg».proof.Proof.KI.Payloads
import proofs.«121133_j45956150067877_2_alg».proof.Proof.Spec
import Idealize.ShloMosaic.Lib.Pipeline.Value
import Idealize.ShloMosaic.Lib.ValueIdx

noncomputable section

namespace Cert.KernelIdeal.Val0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however they are spelt. -/
theorem hz3 : (![0, 0, 0] : Fin 3 → Nat) = fun _ => 0 := funext fun a => by fin_cases a <;> rfl

/-- The grid has 8 × 24 = 192 points. -/
theorem lt_192 (t : Fin cfg0.N) : t.val < 192 :=
  lt_of_lt_of_eq t.isLt N_0

/-- The block indices at point t = 24 e + n, decided over the 192 points: every window is on expert e = t / 24 and
    on its whole middle axis; the token slab has one column block, the gate weights' column block is n = t % 24, the
    up weights' is n + 24, and the output's is n. -/
theorem idx_facts : ∀ t : Fin cfg0.N,
      win0_3.index t (0 : Fin 3) = t.val / 24 ∧ win0_3.index t (1 : Fin 3) = 0 ∧ win0_3.index t (2 : Fin 3) = t.val % 24
    ∧ win0_0.index t (0 : Fin 3) = t.val / 24 ∧ win0_0.index t (1 : Fin 3) = 0 ∧ win0_0.index t (2 : Fin 3) = 0
    ∧ win0_1.index t (0 : Fin 3) = t.val / 24 ∧ win0_1.index t (1 : Fin 3) = 0 ∧ win0_1.index t (2 : Fin 3) = t.val % 24
    ∧ win0_2.index t (0 : Fin 3) = t.val / 24 ∧ win0_2.index t (1 : Fin 3) = 0 ∧ win0_2.index t (2 : Fin 3) = t.val % 24 + 24 :=
  (by decide +kernel : ∀ t : Fin grid0.N, _)

/-! ## One entry of the body's block, from the entries of the arrays its three input blocks are cut from -/

/-- If row p of the token block is row p of expert e's slab, and column q of the two weight blocks is gate column n
    and up column n of expert e's weights, the body's block at (p, q) is the hidden activation at (e, p, n). -/
theorem block_hidden (x0 : Vec Ideal S1x1024x2048 .f32) (x1 x2 : Vec Ideal S1x2048x256 .f32)
    (X : FVec Ideal Cert.Moe.SX .f32) (W : FVec Ideal Cert.Moe.SW1 .f32) (e : Fin 8) (n : Fin 6144) (p : Fin 1024) (q : Fin 256)
    (h0 : ∀ d : Fin 2048, x0 (ix3 (0 : Fin 1) p d) = X (ix3 e p d))
    (h1 : ∀ d : Fin 2048, x1 (ix3 (0 : Fin 1) d q) = W (ix3 e d (⟨n.val, Cert.Moe.gate_col_lt n⟩ : Fin 12288)))
    (h2 : ∀ d : Fin 2048, x2 (ix3 (0 : Fin 1) d q) = W (ix3 e d (⟨n.val + 6144, Cert.Moe.up_col_lt n⟩ : Fin 12288))) :
    k0_pay1 (F := Ideal) x0 x1 x2 (ix3 (0 : Fin 1) p q) = Cert.Moe.hidden X W (ix3 e p n) := by
  rw [Pay.pay0, Cert.Moe.hidden_apply]
  unfold Cert.Moe.gate Cert.Moe.up
  simp only [h0, h1, h2]

/-! ## The three input blocks at a point, as entries of their arrays -/

/-- The token block at point t is expert (t / 24)'s slab. -/
theorem tokens_apply (c : Dev nD) (t : Fin cfg0.N) (e : Fin 8) (he : e.val = t.val / 24) (p : Fin 1024) (d : Fin 2048) :
    (iblk0 V c 0 t : Vec Ideal S1x1024x2048 .f32) (ix3 (0 : Fin 1) p d)
      = (V c main_v0 : Cert.Moe.SX.Idx → Elt Ideal .f32) (ix3 e p d) := by
  obtain ⟨-, -, -, e0, e1, e2, -⟩ := idx_facts t
  unfold iblk0
  rw [View.read_apply]
  show V c main_v0 _ = V c main_v0 _
  refine congrArg _ (funext fun a => Fin.ext ?_)
  match a with
  | ⟨0, _⟩ => show win0_0.index t (0 : Fin 3) * 1 + 1 * 0 = e.val; rw [e0, he]; omega
  | ⟨1, _⟩ => show win0_0.index t (1 : Fin 3) * 1024 + 1 * p.val = p.val; rw [e1]; omega
  | ⟨2, _⟩ => show win0_0.index t (2 : Fin 3) * 2048 + 1 * d.val = d.val; rw [e2]; omega

/-- The gate weights' block at point t is columns 256 (t % 24) … of expert (t / 24)'s weights. -/
theorem gate_weights_apply (c : Dev nD) (t : Fin cfg0.N) (e : Fin 8) (he : e.val = t.val / 24) (k : Fin 12288) (q : Fin 256)
    (hk : k.val = 256 * (t.val % 24) + q.val) (d : Fin 2048) :
    (iblk0 V c 1 t : Vec Ideal S1x2048x256 .f32) (ix3 (0 : Fin 1) d q)
      = (V c main_arg1 : Cert.Moe.SW1.Idx → Elt Ideal .f32) (ix3 e d k) := by
  obtain ⟨-, -, -, -, -, -, e0, e1, e2, -⟩ := idx_facts t
  unfold iblk0
  rw [View.read_apply]
  show V c main_arg1 _ = V c main_arg1 _
  refine congrArg _ (funext fun a => Fin.ext ?_)
  match a with
  | ⟨0, _⟩ => show win0_1.index t (0 : Fin 3) * 1 + 1 * 0 = e.val; rw [e0, he]; omega
  | ⟨1, _⟩ => show win0_1.index t (1 : Fin 3) * 2048 + 1 * d.val = d.val; rw [e1]; omega
  | ⟨2, _⟩ => show win0_1.index t (2 : Fin 3) * 256 + 1 * q.val = k.val; rw [e2, hk]; omega

/-- The up weights' block at point t is columns 256 (t % 24 + 24) … of expert (t / 24)'s weights. -/
theorem up_weights_apply (c : Dev nD) (t : Fin cfg0.N) (e : Fin 8) (he : e.val = t.val / 24) (k : Fin 12288) (q : Fin 256)
    (hk : k.val = 256 * (t.val % 24 + 24) + q.val) (d : Fin 2048) :
    (iblk0 V c 2 t : Vec Ideal S1x2048x256 .f32) (ix3 (0 : Fin 1) d q)
      = (V c main_arg1 : Cert.Moe.SW1.Idx → Elt Ideal .f32) (ix3 e d k) := by
  obtain ⟨-, -, -, -, -, -, -, -, -, e0, e1, e2⟩ := idx_facts t
  unfold iblk0
  rw [View.read_apply]
  show V c main_arg1 _ = V c main_arg1 _
  refine congrArg _ (funext fun a => Fin.ext ?_)
  match a with
  | ⟨0, _⟩ => show win0_2.index t (0 : Fin 3) * 1 + 1 * 0 = e.val; rw [e0, he]; omega
  | ⟨1, _⟩ => show win0_2.index t (1 : Fin 3) * 2048 + 1 * d.val = d.val; rw [e1]; omega
  | ⟨2, _⟩ => show win0_2.index t (2 : Fin 3) * 256 + 1 * q.val = k.val; rw [e2, hk]; omega

/-- Entry (p, q) of the output's block at point t sits in the array at (t / 24, p, 256 (t % 24) + q). -/
theorem out_emb (t : Fin cfg0.N) (e : Fin 8) (he : e.val = t.val / 24) (n : Fin 6144) (p : Fin 1024) (q : Fin 256)
    (hn : n.val = 256 * (t.val % 24) + q.val) :
    ((cfg0.win 3).blk t).view.emb (ix3 (0 : Fin 1) p q) = (ix3 e p n : Cert.Moe.SH.Idx) := by
  obtain ⟨e0, e1, e2, -⟩ := idx_facts t
  refine funext fun a => Fin.ext ?_
  match a with
  | ⟨0, _⟩ => show win0_3.index t (0 : Fin 3) * 1 + 1 * 0 = e.val; rw [e0, he]; omega
  | ⟨1, _⟩ => show win0_3.index t (1 : Fin 3) * 1024 + 1 * p.val = p.val; rw [e1]; omega
  | ⟨2, _⟩ => show win0_3.index t (2 : Fin 3) * 256 + 1 * q.val = n.val; rw [e2, hn]; omega

/-! ## What a point writes back -/

/-- What point t writes back is block t of the hidden activations of the arrays as the kernel finds them. -/
theorem flushed_eq (c : Dev nD) (t : Fin cfg0.N) :
    (dat0 V c).flushed 3 t
      = ((cfg0.win 3).blk t).view.read (Elt Ideal) (Cert.Moe.hidden (V c main_v0) (V c main_arg1)) := by
  show (cfg0.win 3).cut (grid0.coords t) ((dat0 V c).after 3 t) = _
  rw [after0_3]
  unfold out0_3
  rw [View.canon_unit_zero hz3]
  simp only [View.ld_unit_zero (S := S1x1024x2048) hz3, View.ld_unit_zero (S := S1x2048x256) hz3]
  have ht := lt_192 t
  refine funext fun j => ?_
  obtain ⟨u, p, q, rfl⟩ : ∃ (u : Fin 1) (p : Fin 1024) (q : Fin 256), j = ix3 u p q := ⟨j 0, j 1, j 2, eq_ix3 j⟩
  obtain rfl : u = 0 := Subsingleton.elim _ _
  have hq := q.isLt
  show k0_pay1 (iblk0 V c 0 t) (iblk0 V c 1 t) (iblk0 V c 2 t) (ix3 (0 : Fin 1) p q)
    = Cert.Moe.hidden (V c main_v0) (V c main_arg1) (((cfg0.win 3).blk t).view.emb (ix3 (0 : Fin 1) p q))
  rw [out_emb t ⟨t.val / 24, by omega⟩ rfl ⟨256 * (t.val % 24) + q.val, by omega⟩ p q rfl]
  exact block_hidden _ _ _ _ _ _ _ p q
    (fun d => tokens_apply V c t _ rfl p d)
    (fun d => gate_weights_apply V c t _ rfl _ q rfl d)
    (fun d => up_weights_apply V c t _ rfl _ q (by show 256 * (t.val % 24) + q.val + 6144 = _; omega) d)

/-! ## The blocks tile the array -/

/-- An index of the array is in point t's block iff each coordinate is in the block's range on its axis. -/
theorem mem_blk (t : Fin cfg0.N) (i : S8x1024x6144.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v1).slice (win0_3.rect t)).set ↔ _
  rw [View.set_slice_whole, Rect.mem_set_unit]
  exact Iff.rfl

/-- Entry (e, p, n) is in the block of point 24 e + n / 256, and every point writes back. -/
theorem covered (i : S8x1024x6144.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 6144 := (i 2).isLt
  obtain ⟨t, htv⟩ : ∃ t : Fin cfg0.N, t.val = 24 * (i 0).val + (i 2).val / 256 :=
    ⟨⟨24 * (i 0).val + (i 2).val / 256, by rw [show cfg0.N = 192 from N_0]; omega⟩, rfl⟩
  obtain ⟨e0, e1, e2, -⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    rw [e0, htv]; omega
  | ⟨1, _⟩ =>
    show win0_3.index t (1 : Fin 3) * 1024 ≤ (i 1).val ∧ (i 1).val < win0_3.index t (1 : Fin 3) * 1024 + 1024
    rw [e1]; omega
  | ⟨2, _⟩ =>
    show win0_3.index t (2 : Fin 3) * 256 ≤ (i 2).val ∧ (i 2).val < win0_3.index t (2 : Fin 3) * 256 + 256
    rw [e2, htv]; omega

/-! ## The array after the kernel -/

/-- After all 192 write-backs the hidden-activation array holds, at (e, t, n), (g · logistic g) · u with g and u row t
    of expert e's slab against gate column n and up column n of expert e's weights. -/
theorem hidden_array (c : Dev nD) :
    (dat0 (F := Ideal) V c).arrAt 3 cfg0.N = Cert.Moe.hidden (V c main_v0) (V c main_arg1) :=
  (dat0 V c).arrAt_eq_of_cover 3 (Cert.Moe.hidden (V c main_v0) (V c main_arg1)) (fun t _ => flushed_eq V c t) covered

end Cert.KernelIdeal.Val0

end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.LibRunningTotal.lean ====
/-
  A running total over an additive commutative monoid (no subtraction, no order, nothing asked to be finite — the
  extended reals are an instance): starting from zero and adding one term at a time on the right, in order, gives
  the sum of the terms; and the same when the first step overwrites whatever was there with `0 + s 0` instead of
  reading it.  This is the arithmetic of an accumulator that is cleared at the first of `n` consecutive steps and
  added into at every step, for example an output block kept resident while a contraction is taken in `n` blocks.
-/
import Mathlib.Algebra.BigOperators.Fin
import Mathlib.Algebra.BigOperators.Group.Finset.Basic
import Mathlib.Data.Fintype.BigOperators

open scoped BigOperators

namespace Cert.LibRunningTotal

/-- A running total `a` over `n` terms: `a 0 = 0` and each step adds the next term on the right, `a (k + 1) = a k + s k`.
    After `m ≤ n` steps it is the sum of the first `m` terms. -/
theorem acc_prefix {M : Type*} [AddCommMonoid M] {n : ℕ} (s : Fin n → M) (a : ℕ → M) (h0 : a 0 = 0)
    (hstep : ∀ k (hk : k < n), a (k + 1) = a k + s ⟨k, hk⟩) :
    ∀ m (hm : m ≤ n), a m = ∑ k : Fin m, s (Fin.castLE hm k) := by
  intro m
  induction m with
  | zero => intro _; rw [h0]; exact (Finset.sum_empty).symm
  | succ m ih =>
    intro hm
    rw [hstep m hm, ih (Nat.le_of_succ_le hm), Fin.sum_univ_castSucc]
    rfl

/-- After all `n` steps the running total is the sum of all the terms. -/
theorem acc_total {M : Type*} [AddCommMonoid M] {n : ℕ} (s : Fin n → M) (a : ℕ → M) (h0 : a 0 = 0)
    (hstep : ∀ k (hk : k < n), a (k + 1) = a k + s ⟨k, hk⟩) : a n = ∑ k : Fin n, s k :=
  (acc_prefix s a h0 hstep n le_rfl).trans (Finset.sum_congr rfl fun _ _ => congrArg s (Fin.ext rfl))

/-- The same when the first step does not read what was there before but writes `0 + s 0` (the total is cleared, then
    the first term added), and every later step adds its term on the right. -/
theorem acc_total_cleared {M : Type*} [AddCommMonoid M] {n : ℕ} (s : Fin (n + 1) → M) (a : ℕ → M)
    (hfirst : a 1 = 0 + s 0)
    (hstep : ∀ k (hk : k < n + 1), 0 < k → a (k + 1) = a k + s ⟨k, hk⟩) : a (n + 1) = ∑ k : Fin (n + 1), s k := by
  let a' : ℕ → M := fun k => if k = 0 then 0 else a k
  have h0 : a' 0 = 0 := if_pos rfl
  have hs : ∀ k (hk : k < n + 1), a' (k + 1) = a' k + s ⟨k, hk⟩ := by
    intro k hk
    show (if k + 1 = 0 then 0 else a (k + 1)) = (if k = 0 then 0 else a k) + s ⟨k, hk⟩
    rw [if_neg (Nat.succ_ne_zero k)]
    by_cases hk0 : k = 0
    · subst hk0; rw [if_pos rfl]; exact hfirst
    · rw [if_neg hk0]; exact hstep k hk (Nat.pos_of_ne_zero hk0)
  have := acc_total s a' h0 hs
  rwa [show a' (n + 1) = a (n + 1) from if_neg (Nat.succ_ne_zero n)] at this

end Cert.LibRunningTotal
-- ==== Proof.SpecAlgebra.lean ====
/-
  Two regroupings of the finite sums of the specification, valid in any additive commutative monoid (the extended reals
  are one; no term is asked to be finite):

  * the contraction over 6144 hidden columns cut into 12 consecutive blocks of 512;
  * a running total that starts from zero and adds one term at a time, in order, is the sum of the terms.
-/
import proofs.«121133_j45956150067877_2_alg».proof.Proof.Spec
import proofs.«121133_j45956150067877_2_alg».proof.Proof.LibGemmSplit
import proofs.«121133_j45956150067877_2_alg».proof.Proof.LibRunningTotal

noncomputable section

open scoped BigOperators

namespace Cert.Moe

open Idealize.ShloMosaic Idealize.ShloMosaic.ValueIdx

/-- Position `j` of block `k`, of 12 blocks of 512 hidden columns, is a hidden column. -/
theorem blk512_lt (k : Fin 12) (j : Fin 512) : 512 * k.val + j.val < 6144 :=
  Cert.LibGemmSplit.blk_lt (N := 6144) (n := 12) (b := 512) (by norm_num) k j

/-- The output as 12 partial products, one per block of 512 hidden columns:
    `down (e, t, d) = ∑ k < 12, ∑ j < 512, h (e, t, 512 k + j) * w2 (e, 512 k + j, d)`. -/
theorem down_blocks (h : FVec Ideal SH .f32) (w2 : FVec Ideal SW2 .f32) (e : Fin 8) (t : Fin 1024) (d : Fin 2048) :
    down h w2 (ix3 e t d)
      = ∑ k : Fin 12, ∑ j : Fin 512,
          h (ix3 e t (⟨512 * k.val + j.val, blk512_lt k j⟩ : Fin 6144))
            * w2 (ix3 e (⟨512 * k.val + j.val, blk512_lt k j⟩ : Fin 6144) d) :=
  (down_apply h w2 e t d).trans
    (Cert.LibGemmSplit.sum_blocks (N := 6144) (n := 12) (b := 512) (by norm_num)
      (fun i : Fin 6144 => h (ix3 e t i) * w2 (ix3 e i d)))

/-- The `k`-th partial product of the output: block `k` of 512 hidden columns against the matching 512 rows of the
    second weights. -/
def downPart (h : FVec Ideal SH .f32) (w2 : FVec Ideal SW2 .f32) (e : Fin 8) (t : Fin 1024) (d : Fin 2048) (k : Fin 12) : EReal :=
  ∑ j : Fin 512,
    h (ix3 e t (⟨512 * k.val + j.val, blk512_lt k j⟩ : Fin 6144))
      * w2 (ix3 e (⟨512 * k.val + j.val, blk512_lt k j⟩ : Fin 6144) d)

/-- The output is the sum of its 12 partial products. -/
theorem down_eq_sum_parts (h : FVec Ideal SH .f32) (w2 : FVec Ideal SW2 .f32) (e : Fin 8) (t : Fin 1024) (d : Fin 2048) :
    down h w2 (ix3 e t d) = ∑ k : Fin 12, downPart h w2 e t d k :=
  down_blocks h w2 e t d

/-- Twelve terms of extended reals: clear, then add the terms in order; the result is their sum. -/
theorem acc12 (s : Fin 12 → EReal) (a : ℕ → EReal) (hfirst : a 1 = 0 + s 0)
    (hstep : ∀ k (hk : k < 12), 0 < k → a (k + 1) = a k + s ⟨k, hk⟩) : a 12 = ∑ k : Fin 12, s k :=
  Cert.LibRunningTotal.acc_total_cleared (n := 11) s a hfirst hstep

/-- The same total written out as a left-nested sum from zero. -/
theorem acc12_nested (s : Fin 12 → EReal) :
    (((((((((((0 + s 0) + s 1) + s 2) + s 3) + s 4) + s 5) + s 6) + s 7) + s 8) + s 9) + s 10) + s 11
      = ∑ k : Fin 12, s k := by
  rw [zero_add]
  simp only [Fin.sum_univ_succ, Fin.sum_univ_zero, add_zero, add_assoc]
  rfl

end Cert.Moe

end
-- ==== Proof.KI.Value1.lean ====
/-
  The value of the second call's output array over the extended reals, read off the frame argument of its region.

  The call runs on an 8 × 12 grid: point t = 12 e + k handles expert e and the k-th block of 512 hidden columns. Its
  body clears the output block (e, 0, 0) of shape 1 × 1024 × 2048 when k = 0 and then adds to it the product of the
  hidden block (e, 0, k) (1024 × 512) with the weight block (e, k, 0) (512 × 2048); the block is written back only
  after k = 11. So after point 12 e + k the block holds, at (tok, d),

      0 + ∑ k' ≤ k, ∑ j < 512, h (e, tok, 512 k' + j) · w2 (e, 512 k' + j, d),

  and what is written back at k = 11 is the whole contraction ∑ i < 6144, h (e, tok, i) · w2 (e, i, d): twelve blocks
  of 512 make the 6144 hidden columns. Only 0 + x = x and the re-grouping of a finite sum are used; no value is asked
  to be finite. The eight write-backs (one per expert) tile the output array.
-/
import proofs.«121133_j45956150067877_2_alg».proof.Proof.KI.Region1
import proofs.«121133_j45956150067877_2_alg».proof.Proof.KI.Payloads
import proofs.«121133_j45956150067877_2_alg».proof.Proof.Spec
import proofs.«121133_j45956150067877_2_alg».proof.Proof.SpecAlgebra
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx
open scoped BigOperators

namespace Cert.KernelIdeal.Val1

open Cert.KernelIdeal Cert.KernelIdeal.Gen Cert.KernelIdeal.Hand

section Pieces
variable {F : FTy → Type} [FloatOps F]

/-- Zero offsets on three axes, however spelt. -/
theorem hz3 : (![0, 0, 0] : Fin 3 → Nat) = fun _ => 0 := funext fun a => by fin_cases a <;> rfl

/-- The case k ≠ 0: with the output block's staging buffer holding `xo`, the body leaves there the accumulated
    block of the two input blocks over `xo` — its one covering store's payload, whose loads read the whole buffers. -/
theorem out_B (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc : ¬cond1_0 i)
    (x0 : Vec F S1x1024x512 .bf16) (x1 : Vec F S1x512x2048 .f32) (xo : Vec F S1x1024x2048 .f32) :
    out1_B_2 c i arg2 harg2 arg3 harg3 arg4 harg4 hc x0 x1 xo = k1_pay2 x0 x1 xo := by
  unfold out1_B_2
  rw [View.read_writes_eq_canon _ _ _ (cover1_B_2 c i arg2 harg2 arg3 harg3 arg4 harg4 hc x0 x1 xo)]
  unfold kernelRun1_B
  dsimp only
  rw [View.canon_unit_zero hz3]
  simp only [View.readAt_eq_ld, harg2.read_unread, harg3.read_unread, harg4.read_unread,
    View.ld_unit_zero (S := S1x1024x512) hz3, View.ld_unit_zero (S := S1x512x2048) hz3,
    View.ld_unit_zero (S := S1x1024x2048) hz3]

/-- The case k = 0: the body stores the zero block, reads it back, and leaves the accumulated block of the two input
    blocks over zeros. -/
theorem out_A (c : Dev nD) (i : grid1.Coords) (arg2 : Memref sig .tc .vmem S1x1024x512 .bf16) (harg2 : arg2.IsWhole) (arg3 : Memref sig .tc .vmem S1x512x2048 .f32) (harg3 : arg3.IsWhole) (arg4 : Memref sig .tc .vmem S1x1024x2048 .f32) (harg4 : arg4.IsWhole) (hc : cond1_0 i)
    (x0 : Vec F S1x1024x512 .bf16) (x1 : Vec F S1x512x2048 .f32) :
    out1_A_2 c i arg2 harg2 arg3 harg3 arg4 harg4 hc x0 x1 = k1_pay2 x0 x1 (k1_pay1 (F := F)) := by
  unfold out1_A_2
  rw [View.read_writes_eq_canon _ _ _ (cover1_A_2 c i arg2 harg2 arg3 harg3 arg4 harg4 hc x0 x1)]
  unfold kernelRun1_A
  dsimp only
  sl_unfold_words
  rw [View.canon_cons_unit_zero (S := S1x1024x2048) hz3, View.readCov_unit_zero (S := S1x1024x2048) _ hz3]
  simp only [View.readAt_eq_ld, harg2.read_unread, harg3.read_unread,
    View.ld_unit_zero (S := S1x1024x512) hz3, View.ld_unit_zero (S := S1x512x2048) hz3]

end Pieces

section Value
-- the TensorCore's buffer contents, over the extended reals, when the region of the second call is entered
variable (V : (c : Dev nD) → (b : Ref sig .tc) → Buf (Elt Ideal) ((c : Thread nD τ).loc b))

/-- The hidden activations (8 × 1024 × 6144) as the region finds them. -/
abbrev hid (c : Dev nD) : FVec Ideal Cert.Moe.SH .f32 := V c main_v1
/-- The second weights (8 × 6144 × 2048) as the region finds them. -/
abbrev wts (c : Dev nD) : FVec Ideal Cert.Moe.SW2 .f32 := V c main_arg2

/-- The index maps, decided over the grid: at point t = 12 e + k the hidden block is (e, 0, k), the weight block
    (e, k, 0), the output block (e, 0, 0). -/
theorem idx_facts : ∀ t : Fin cfg1.N,
    win1_0.index t (0 : Fin 3) = t.val / 12 ∧ win1_0.index t (1 : Fin 3) = 0 ∧ win1_0.index t (2 : Fin 3) = t.val % 12
    ∧ win1_1.index t (0 : Fin 3) = t.val / 12 ∧ win1_1.index t (1 : Fin 3) = t.val % 12 ∧ win1_1.index t (2 : Fin 3) = 0
    ∧ win1_2.index t (0 : Fin 3) = t.val / 12 ∧ win1_2.index t (1 : Fin 3) = 0 ∧ win1_2.index t (2 : Fin 3) = 0 :=
  (by decide +kernel : ∀ t : Fin grid1.N,
    win1_0.index t (0 : Fin 3) = t.val / 12 ∧ win1_0.index t (1 : Fin 3) = 0 ∧ win1_0.index t (2 : Fin 3) = t.val % 12
    ∧ win1_1.index t (0 : Fin 3) = t.val / 12 ∧ win1_1.index t (1 : Fin 3) = t.val % 12 ∧ win1_1.index t (2 : Fin 3) = 0
    ∧ win1_2.index t (0 : Fin 3) = t.val / 12 ∧ win1_2.index t (1 : Fin 3) = 0 ∧ win1_2.index t (2 : Fin 3) = 0)

/-- The hidden block (1 × 1024 × 512) and the weight block (1 × 512 × 2048) the body is handed at point t. -/
abbrev hblk (c : Dev nD) (t : Fin cfg1.N) : Vec Ideal S1x1024x512 .bf16 := iblk1 (F := Ideal) V c 0 t
abbrev wblk (c : Dev nD) (t : Fin cfg1.N) : Vec Ideal S1x512x2048 .f32 := iblk1 (F := Ideal) V c 1 t

/-- The hidden block at point t = 12 e + k, entry (tok, j): the hidden array at (e, tok, 512 k + j). -/
theorem iblk1_0_apply (c : Dev nD) (t : Fin cfg1.N) (e : Fin 8) (k : Fin 12) (ht : t.val = 12 * e.val + k.val)
    (tok : Fin 1024) (j : Fin 512) :
    hblk V c t (ix3 (0 : Fin 1) tok j)
      = hid V c (ix3 e tok (⟨512 * k.val + j.val, Cert.Moe.blk512_lt k j⟩ : Fin 6144)) := by
  obtain ⟨e0, e1, e2, -⟩ := idx_facts t
  have hk := k.isLt
  unfold hblk iblk1
  rw [View.read_apply]
  show V c main_v1 _ = V c main_v1 _
  refine congrArg (V c main_v1) ?_
  funext a
  apply Fin.ext
  match a with
  | ⟨0, _⟩ => show win1_0.index t (0 : Fin 3) * 1 + 1 * 0 = e.val; rw [e0]; omega
  | ⟨1, _⟩ => show win1_0.index t (1 : Fin 3) * 1024 + 1 * tok.val = tok.val; rw [e1]; omega
  | ⟨2, _⟩ => show win1_0.index t (2 : Fin 3) * 512 + 1 * j.val = 512 * k.val + j.val; rw [e2]; omega

/-- The weight block at point t = 12 e + k, entry (j, d): the weight array at (e, 512 k + j, d). -/
theorem iblk1_1_apply (c : Dev nD) (t : Fin cfg1.N) (e : Fin 8) (k : Fin 12) (ht : t.val = 12 * e.val + k.val)
    (j : Fin 512) (d : Fin 2048) :
    wblk V c t (ix3 (0 : Fin 1) j d)
      = wts V c (ix3 e (⟨512 * k.val + j.val, Cert.Moe.blk512_lt k j⟩ : Fin 6144) d) := by
  obtain ⟨-, -, -, e0, e1, e2, -⟩ := idx_facts t
  have hk := k.isLt
  unfold wblk iblk1
  rw [View.read_apply]
  show V c main_arg2 _ = V c main_arg2 _
  refine congrArg (V c main_arg2) ?_
  funext a
  apply Fin.ext
  match a with
  | ⟨0, _⟩ => show win1_1.index t (0 : Fin 3) * 1 + 1 * 0 = e.val; rw [e0]; omega
  | ⟨1, _⟩ => show win1_1.index t (1 : Fin 3) * 512 + 1 * j.val = 512 * k.val + j.val; rw [e1]; omega
  | ⟨2, _⟩ => show win1_1.index t (2 : Fin 3) * 2048 + 1 * d.val = d.val; rw [e2]; omega

/-- The product of the two blocks at point t = 12 e + k, entry (tok, d), is the k-th partial product of the output. -/
theorem part_eq (c : Dev nD) (t : Fin cfg1.N) (e : Fin 8) (k : Fin 12) (ht : t.val = 12 * e.val + k.val)
    (tok : Fin 1024) (d : Fin 2048) :
    ∑ j : Fin 512, hblk V c t (ix3 (0 : Fin 1) tok j)
        * wblk V c t (ix3 (0 : Fin 1) j d)
      = Cert.Moe.downPart (hid V c) (wts V c) e tok d k := by
  unfold Cert.Moe.downPart
  refine Finset.sum_congr rfl fun j _ => ?_
  rw [iblk1_0_apply V c t e k ht tok j, iblk1_1_apply V c t e k ht j d]

/-- At a point with k = 0 the output block's buffer ends at zero plus the first partial product. -/
theorem val_A (c : Dev nD) (t : Fin cfg1.N) (e : Fin 8) (k : Fin 12) (ht : t.val = 12 * e.val + k.val) (hk : k.val = 0)
    (tok : Fin 1024) (d : Fin 2048) :
    outsAt1 (F := Ideal) V c t.val t.isLt (ix3 (0 : Fin 1) tok d) = 0 + Cert.Moe.downPart (hid V c) (wts V c) e tok d k := by
  have h0 : t.val % 12 = 0 := by omega
  rw [outsAt1_A V c t h0]
  refine (congrFun (out_A (F := Ideal) c (grid1.coords t) (ms1_0 t) (hs1_0 t) (ms1_1 t) (hs1_1 t) (ms1_2 t) (hs1_2 t) ((hcond1_0 t).mpr h0) (iblk1 V c 0 t) (iblk1 V c 1 t)) (ix3 (0 : Fin 1) tok d)).trans ?_
  refine (Pay.pay2 (hblk V c t) (wblk V c t) (k1_pay1 (F := Ideal)) tok d).trans ?_
  exact congrArg₂ (· + ·) (Pay.pay1_zero tok d) (part_eq V c t e k ht tok d)

/-- At a point with k ≠ 0 it ends at what the point before left plus the k-th partial product. -/
theorem val_B (c : Dev nD) (t : Fin cfg1.N) (e : Fin 8) (k : Fin 12) (ht : t.val = 12 * e.val + k.val) (hk : k.val ≠ 0)
    (tok : Fin 1024) (d : Fin 2048) :
    outsAt1 (F := Ideal) V c t.val t.isLt (ix3 (0 : Fin 1) tok d)
      = outsAt1 (F := Ideal) V c (t.val - 1) (Nat.lt_of_le_of_lt (Nat.sub_le _ _) t.isLt) (ix3 (0 : Fin 1) tok d)
        + Cert.Moe.downPart (hid V c) (wts V c) e tok d k := by
  have hk12 := k.isLt
  have h0 : ¬t.val % 12 = 0 := by omega
  rw [outsAt1_B V c t h0]
  refine (congrFun (out_B (F := Ideal) c (grid1.coords t) (ms1_0 t) (hs1_0 t) (ms1_1 t) (hs1_1 t) (ms1_2 t) (hs1_2 t) (fun h => h0 ((hcond1_0 t).mp h)) (iblk1 V c 0 t) (iblk1 V c 1 t)
    (outsAt1 V c (t.val - 1) (Nat.lt_of_le_of_lt (Nat.sub_le _ _) t.isLt))) (ix3 (0 : Fin 1) tok d)).trans ?_
  refine (Pay.pay2 (hblk V c t) (wblk V c t) (outsAt1 V c (t.val - 1) (Nat.lt_of_le_of_lt (Nat.sub_le _ _) t.isLt)) tok d).trans ?_
  exact congrArg (_ + ·) (part_eq V c t e k ht tok d)

/-- The point's position alone decides what the buffer holds there. -/
theorem same_point (c : Dev nD) {n n' : ℕ} (e : n = n') (hn : n < cfg1.N) (hn' : n' < cfg1.N) :
    outsAt1 (F := Ideal) V c n hn = outsAt1 (F := Ideal) V c n' hn' := by subst e; rfl

/-- Step n of expert e's row of twelve points is a point of the grid. -/
theorem row_lt (e : Fin 8) {n : ℕ} (hn : n < 12) : 12 * e.val + n < cfg1.N := by
  have hN : cfg1.N = 96 := N_1
  have he := e.isLt
  rw [hN]; omega

/-- Entry (tok, d) of the output block after step n - 1 of expert e's row of twelve points (zero outside the row). -/
def rowAcc (c : Dev nD) (e : Fin 8) (tok : Fin 1024) (d : Fin 2048) (n : ℕ) : EReal :=
  if hn : n - 1 < 12 then outsAt1 (F := Ideal) V c (12 * e.val + (n - 1)) (row_lt e hn) (ix3 (0 : Fin 1) tok d) else 0

theorem rowAcc_succ (c : Dev nD) (e : Fin 8) (tok : Fin 1024) (d : Fin 2048) (n : ℕ) (hn : n < 12) :
    rowAcc V c e tok d (n + 1) = outsAt1 (F := Ideal) V c (12 * e.val + n) (row_lt e hn) (ix3 (0 : Fin 1) tok d) := by
  unfold rowAcc
  rw [dif_pos (show n + 1 - 1 < 12 by omega)]
  exact congrFun (same_point V c (by omega) _ _) _

/-- After the last point of expert e's row the output block holds, at (tok, d), the whole contraction over the 6144
    hidden columns: cleared, then the twelve partial products added in order. -/
theorem expert_total (c : Dev nD) (e : Fin 8) (tok : Fin 1024) (d : Fin 2048) :
    outsAt1 (F := Ideal) V c (12 * e.val + 11) (row_lt e (by omega)) (ix3 (0 : Fin 1) tok d)
      = Cert.Moe.down (hid V c) (wts V c) (ix3 e tok d) := by
  rw [Cert.Moe.down_eq_sum_parts, ← rowAcc_succ V c e tok d 11 (by omega)]
  refine Cert.Moe.acc12 (fun k => Cert.Moe.downPart (hid V c) (wts V c) e tok d k) (rowAcc V c e tok d) ?_ ?_
  · refine (rowAcc_succ V c e tok d 0 (by omega)).trans ?_
    exact val_A V c ⟨12 * e.val + 0, row_lt e (by omega)⟩ e 0 rfl rfl tok d
  · intro k hk hpos
    obtain ⟨k', rfl⟩ : ∃ k', k = k' + 1 := ⟨k - 1, by omega⟩
    rw [rowAcc_succ V c e tok d (k' + 1) hk, rowAcc_succ V c e tok d k' (by omega)]
    refine (val_B V c ⟨12 * e.val + (k' + 1), row_lt e hk⟩ e ⟨k' + 1, hk⟩ rfl (Nat.succ_ne_zero k') tok d).trans ?_
    exact congrArg (· + _) (congrFun (same_point V c (by show 12 * e.val + (k' + 1) - 1 = 12 * e.val + k'; omega) _ _) _)

end Value

section Final
variable (V : (c : Dev nD) → (b : Ref sig .tc) → Buf (Elt Ideal) ((c : Thread nD τ).loc b))

/-- What a point with k = 11 writes back is its block of the contraction: the output block (e, 0, 0) holds, entry by
    entry, the whole sum over the hidden columns. -/
theorem flushed_eq (c : Dev nD) (t : Fin cfg1.N) (hf : (cfg1.win 2).flush t = true) :
    (dat1 (F := Ideal) V c).flushed 2 t
      = ((cfg1.win 2).blk t).view.read (Elt Ideal) (Cert.Moe.down (hid V c) (wts V c)) := by
  have hN : cfg1.N = 96 := N_1
  have h11 : t.val % 12 = 11 := (flush1_2 t).mp hf
  have htlt : t.val < 96 := lt_of_lt_of_eq t.isLt hN
  obtain ⟨-, -, -, -, -, -, e0, e1, e2⟩ := idx_facts t
  show (cfg1.win 2).cut (grid1.coords t) ((dat1 V c).after 2 t) = _
  rw [after1_2]
  refine funext fun (j : S1x1024x2048.Idx) => ?_
  obtain ⟨j0, tok, d, rfl⟩ : ∃ (j0 : Fin 1) (tok : Fin 1024) (d : Fin 2048), j = ix3 j0 tok d := ⟨j 0, j 1, j 2, eq_ix3 j⟩
  obtain rfl : j0 = 0 := Subsingleton.elim _ _
  show outsAt1 (F := Ideal) V c t.val t.isLt (ix3 (0 : Fin 1) tok d)
    = Cert.Moe.down (hid V c) (wts V c) (((cfg1.win 2).blk t).view.emb (ix3 (0 : Fin 1) tok d))
  have hemb : ((cfg1.win 2).blk t).view.emb (ix3 (0 : Fin 1) tok d) = ix3 (⟨t.val / 12, by omega⟩ : Fin 8) tok d := by
    funext a
    apply Fin.ext
    match a with
    | ⟨0, _⟩ => show win1_2.index t (0 : Fin 3) * 1 + 1 * 0 = t.val / 12; rw [e0]; omega
    | ⟨1, _⟩ => show win1_2.index t (1 : Fin 3) * 1024 + 1 * tok.val = tok.val; rw [e1]; omega
    | ⟨2, _⟩ => show win1_2.index t (2 : Fin 3) * 2048 + 1 * d.val = d.val; rw [e2]; omega
  rw [hemb, ← expert_total V c (⟨t.val / 12, by omega⟩ : Fin 8) tok d]
  exact congrFun (same_point V c (by show t.val = 12 * (t.val / 12) + 11; omega) _ _) _

/-- An index of the output array is in point t's block iff each coordinate is in the block's range on its axis. -/
theorem mem_blk (t : Fin cfg1.N) (i : S8x1024x2048.Idx) :
    i ∈ ((cfg1.win 2).blk t).view.set ↔ ∀ a : Fin 3, win1_2.index t a * S1x1024x2048.size a ≤ (i a).val
      ∧ (i a).val < win1_2.index t a * S1x1024x2048.size a + S1x1024x2048.size a := by
  show i ∈ ((View.whole main_v2).slice (win1_2.rect t)).set ↔ _
  rw [View.set_slice_whole, Rect.mem_set_unit]
  exact Iff.rfl

/-- Every entry (e, tok, d) of the output array is in the block written back at the point 12 e + 11. -/
theorem covered (i : S8x1024x2048.Idx) :
    ∃ t : Fin cfg1.N, (cfg1.win 2).flush t = true ∧ i ∈ ((cfg1.win 2).blk t).view.set := by
  have hN : cfg1.N = 96 := N_1
  have h0 : (i 0).val < 8 := (i 0).isLt
  have h1 : (i 1).val < 1024 := (i 1).isLt
  have h2 : (i 2).val < 2048 := (i 2).isLt
  have hlt : 12 * (i 0).val + 11 < cfg1.N := by rw [hN]; omega
  refine ⟨⟨12 * (i 0).val + 11, hlt⟩, (flush1_2 _).mpr (by show (12 * (i 0).val + 11) % 12 = 11; omega), ?_⟩
  rw [mem_blk]
  obtain ⟨-, -, -, -, -, -, e0, e1, e2⟩ := idx_facts ⟨12 * (i 0).val + 11, hlt⟩
  have e0' : win1_2.index ⟨12 * (i 0).val + 11, hlt⟩ (0 : Fin 3) = (i 0).val := by rw [e0]; show (12 * (i 0).val + 11) / 12 = (i 0).val; omega
  intro a
  match a with
  | ⟨0, _⟩ => show win1_2.index ⟨12 * (i 0).val + 11, hlt⟩ (0 : Fin 3) * 1 ≤ (i 0).val ∧ (i 0).val < win1_2.index ⟨12 * (i 0).val + 11, hlt⟩ (0 : Fin 3) * 1 + 1; rw [e0']; omega
  | ⟨1, _⟩ => show win1_2.index ⟨12 * (i 0).val + 11, hlt⟩ (1 : Fin 3) * 1024 ≤ (i 1).val ∧ (i 1).val < win1_2.index ⟨12 * (i 0).val + 11, hlt⟩ (1 : Fin 3) * 1024 + 1024; rw [e1]; omega
  | ⟨2, _⟩ => show win1_2.index ⟨12 * (i 0).val + 11, hlt⟩ (2 : Fin 3) * 2048 ≤ (i 2).val ∧ (i 2).val < win1_2.index ⟨12 * (i 0).val + 11, hlt⟩ (2 : Fin 3) * 2048 + 2048; rw [e2]; omega

/-- After the 96 points the output array holds, at (e, tok, d), the sum over all 6144 hidden columns i of
    h (e, tok, i) · w2 (e, i, d), with h and w2 the hidden activations and the second weights as the region found them. -/
theorem down_array (c : Dev nD) :
    (dat1 (F := Ideal) V c).arrAt 2 cfg1.N = Cert.Moe.down (V c main_v1) (V c main_arg2) :=
  (dat1 (F := Ideal) V c).arrAt_eq_of_cover 2 (Cert.Moe.down (hid V c) (wts V c)) (flushed_eq V c) covered

end Final

end Cert.KernelIdeal.Val1

end
-- ==== Proof.lean ====
/-
  A mixture-of-experts feed-forward layer: 8 experts, 1024 tokens each, model width 2048, inner width 6144.
  For expert e with token slab x (1024 × 2048), fused gate/up weights w (2048 × 12288) and down weights w2
  (6144 × 2048) the layer is

      hidden(t, n) = (g · σ(g)) · u,   g = Σ_d x(t, d) · w(d, n),   u = Σ_d x(t, d) · w(d, n + 6144),
      out(t, d)    = Σ_i hidden(t, i) · w2(i, d).

  The kernel program computes hidden in 8 × 24 blocks of 256 columns (the weight array read through two windows,
  one per half) and out by adding, for each expert, 12 partial products over 512 inner indices each into a block
  it first clears.  The reference forms the two matrix products whole, splits the first along its columns and
  spells σ(g) as 1 / (1 + exp (−g)).  Over the extended reals the two agree entry by entry: σ's two spellings are
  one function, and a sum taken in 12 consecutive blocks from 0 is the sum — only commutativity and associativity
  of + are used, so no finiteness of the inputs is needed.
-/
import proofs.«121133_j45956150067877_2_alg».proof.Defs
import proofs.«121133_j45956150067877_2_alg».proof.Proof.Gen.Kernel
import proofs.«121133_j45956150067877_2_alg».proof.Proof.Gen.KernelIdeal
import proofs.«121133_j45956150067877_2_alg».proof.Proof.Gen.ReferenceIdeal
import proofs.«121133_j45956150067877_2_alg».proof.Proof.Gen.Pre_finite_inputs
import proofs.«121133_j45956150067877_2_alg».proof.Proof.Gen.ReferenceIdeal.Run
import proofs.«121133_j45956150067877_2_alg».proof.Proof.K.Run
import proofs.«121133_j45956150067877_2_alg».proof.Proof.KI.Run
import proofs.«121133_j45956150067877_2_alg».proof.Proof.RefIsSpec
import proofs.«121133_j45956150067877_2_alg».proof.Proof.KI.ValueMain
import proofs.«121133_j45956150067877_2_alg».proof.Proof.KI.Value0
import proofs.«121133_j45956150067877_2_alg».proof.Proof.KI.Value1
import Idealize.ShloMosaic.Adequacy
import Idealize.ShloMosaic.Init

noncomputable section

namespace Cert.Proof

open Idealize.ShloMosaic Idealize.ShloMosaic.TcCoe Idealize.SL.Sem

/-- The word-level program runs to the end, faults nowhere and leaves its three argument arrays as launched. -/
theorem frame_kernel : Cert.frame_Kernel (hKernel := Cert.Kernel.Gen.facts) (hPre_finite_inputs := Cert.Pre_finite_inputs.Gen.facts) :=
  fun m ρ _ => Cert.Kernel.Hand.frame m ρ

/-- So does the program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is a line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the three arguments, both programs end with the result array at the layer's
    value of the arguments: the kernel program by its run read block by block, the reference by its operations read
    index by index. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Hand.run_value m ρ (fun V c => Cert.KernelIdeal.Val0.hidden_array V c) (fun V c => Cert.KernelIdeal.Val1.down_array V c), ?_⟩
  refine (θ_run Cert.ReferenceIdeal.defs _ _).mono (fun _ h c => ⟨(h c).1.trans ?_, (h c).2⟩)
    (Cert.ReferenceIdeal.Value.run (F := Ideal) m' ρ')
  refine (Cert.Moe.ref_is_spec _ _ _).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
